-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1000000 : Shape := ⟨2, ![2, 1000000]⟩
abbrev S1000000 : Shape := ⟨1, ![1000000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part6 {F : FTy → Type} [FloatOps F] (main_arg22 : FVec F S40 .f32) (main_arg23 : FVec F S40 .f32) (main_v98 : IVec S_ 1) (main_v101 : IVec S40 1) (main_c_39 : IVec S_ 1) : IVec S_ 1 :=
  let main_v102 : IVec S_ 1 := (fun x v => Host.reduce IntOp.andi x v reducesTo_S40_S_d0 h_S_) main_v101 main_c_39
  let main_v103 : IVec S_ 1 := andi main_v98 main_v102
  let main_v104 : FVec F S40 .f32 := Host.absf main_arg22
  let main_cst_40 : FVec F S_ .f32 := constant S_ .f32 0x7F800000#32
  let main_v105 : FVec F S40 .f32 := broadcastInDim S40 ![] bcast_S_S40 main_cst_40
  let main_v106 : IVec S40 1 := cmpf .olt main_v104 main_v105
  let main_c_41 : IVec S_ 1 := constantI S_ 1 1#1
  let main_v107 : IVec S_ 1 := (fun x v => Host.reduce IntOp.andi x v reducesTo_S40_S_d0 h_S_) main_v106 main_c_41
  let main_v108 : IVec S_ 1 := andi main_v103 main_v107
  let main_v109 : FVec F S40 .f32 := Host.absf main_arg23
  let main_cst_42 : FVec F S_ .f32 := constant S_ .f32 0x7F800000#32
  let main_v110 : FVec F S40 .f32 := broadcastInDim S40 ![] bcast_S_S40 main_cst_42
  let main_v111 : IVec S40 1 := cmpf .olt main_v109 main_v110
  let main_c_43 : IVec S_ 1 := constantI S_ 1 1#1
  let main_v112 : IVec S_ 1 := (fun x v => Host.reduce IntOp.andi x v reducesTo_S40_S_d0 h_S_) main_v111 main_c_43
  let main_v113 : IVec S_ 1 := andi main_v108 main_v112
  main_v113

def fn_part5 {F : FTy → Type} [FloatOps F] (main_arg19 : FVec F S40 .f32) (main_arg20 : FVec F S40 .f32) (main_arg21 : FVec F S40 .f32) (main_arg22 : FVec F S40 .f32) (main_arg23 : FVec F S40 .f32) (main_v83 : IVec S_ 1) (main_v84 : FVec F S128x40 .f32) (main_cst_32 : FVec F S_ .f32) : IVec S_ 1 :=
  let main_v85 : FVec F S128x40 .f32 := broadcastInDim S128x40 ![] bcast_S_S128x40 main_cst_32
  let main_v86 : IVec S128x40 1 := cmpf .olt main_v84 main_v85
  let main_c_33 : IVec S_ 1 := constantI S_ 1 1#1
  let main_v87 : IVec S_ 1 := (fun x v => Host.reduce IntOp.andi x v reducesTo_S128x40_S_d0_1 h_S_) main_v86 main_c_33
  let main_v88 : IVec S_ 1 := andi main_v83 main_v87
  let main_v89 : FVec F S40 .f32 := Host.absf main_arg19
  let main_cst_34 : FVec F S_ .f32 := constant S_ .f32 0x7F800000#32
  let main_v90 : FVec F S40 .f32 := broadcastInDim S40 ![] bcast_S_S40 main_cst_34
  let main_v91 : IVec S40 1 := cmpf .olt main_v89 main_v90
  let main_c_35 : IVec S_ 1 := constantI S_ 1 1#1
  let main_v92 : IVec S_ 1 := (fun x v => Host.reduce IntOp.andi x v reducesTo_S40_S_d0 h_S_) main_v91 main_c_35
  let main_v93 : IVec S_ 1 := andi main_v88 main_v92
  let main_v94 : FVec F S40 .f32 := Host.absf main_arg20
  let main_cst_36 : FVec F S_ .f32 := constant S_ .f32 0x7F800000#32
  let main_v95 : FVec F S40 .f32 := broadcastInDim S40 ![] bcast_S_S40 main_cst_36
  let main_v96 : IVec S40 1 := cmpf .olt main_v94 main_v95
  let main_c_37 : IVec S_ 1 := constantI S_ 1 1#1
  let main_v97 : IVec S_ 1 := (fun x v => Host.reduce IntOp.andi x v reducesTo_S40_S_d0 h_S_) main_v96 main_c_37
  let main_v98 : IVec S_ 1 := andi main_v93 main_v97
  let main_v99 : FVec F S40 .f32 := Host.absf main_arg21
  let main_cst_38 : FVec F S_ .f32 := constant S_ .f32 0x7F800000#32
  let main_v100 : FVec F S40 .f32 := broadcastInDim S40 ![] bcast_S_S40 main_cst_38
  let main_v101 : IVec S40 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S128 .f32) (main_arg16 : FVec F S128 .f32) (main_arg17 : FVec F S128x40 .f32) (main_arg18 : FVec F S128x40 .f32) (main_arg19 : FVec F S40 .f32) (main_arg20 : FVec F S40 .f32) (main_arg21 : FVec F S40 .f32) (main_arg22 : FVec F S40 .f32) (main_arg23 : FVec F S40 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x40 .f32 := Host.absf main_arg17
  let main_cst_30 : FVec F S_ .f32 := constant S_ .f32 0x7F800000#32
  let main_v80 : FVec F S128x40 .f32 := broadcastInDim S128x40 ![] bcast_S_S128x40 main_cst_30
  let main_v81 : IVec S128x40 1 := cmpf .olt main_v79 main_v80
  let main_c_31 : IVec S_ 1 := constantI S_ 1 1#1
  let main_v82 : IVec S_ 1 := (fun x v => Host.reduce IntOp.andi x v reducesTo_S128x40_S_d0_1 h_S_) main_v81 main_c_31
  let main_v83 : IVec S_ 1 := andi main_v78 main_v82
  let main_v84 : FVec F S128x40 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128x40 .f32) (main_arg18 : FVec F S128x40 .f32) (main_arg19 : FVec F S40 .f32) (main_arg20 : FVec F S40 .f32) (main_arg21 : FVec F S40 .f32) (main_arg22 : FVec F S40 .f32) (main_arg23 : FVec F S40 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128 .f32) (main_arg9 : FVec F S128 .f32) (main_arg10 : FVec F S128x128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x40 .f32) (main_arg18 : FVec F S128x40 .f32) (main_arg19 : FVec F S40 .f32) (main_arg20 : FVec F S40 .f32) (main_arg21 : FVec F S40 .f32) (main_arg22 : FVec F S40 .f32) (main_arg23 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x40 .f32) (main_arg18 : FVec F S128x40 .f32) (main_arg19 : FVec F S40 .f32) (main_arg20 : FVec F S40 .f32) (main_arg21 : FVec F S40 .f32) (main_arg22 : FVec F S40 .f32) (main_arg23 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x256 .f32) (main_arg1 : IVec S2x1000000 32) (main_arg2 : FVec F S1000000 .f32) (main_arg3 : FVec F S256x128 .f32) (main_arg4 : FVec F S256x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x40 .f32) (main_arg18 : FVec F S128x40 .f32) (main_arg19 : FVec F S40 .f32) (main_arg20 : FVec F S40 .f32) (main_arg21 : FVec F S40 .f32) (main_arg22 : FVec F S40 .f32) (main_arg23 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x256 : Shape := ⟨2, ![50000, 256]⟩
abbrev S2x1000000 : Shape := ⟨2, ![2, 1000000]⟩
abbrev S1000000 : Shape := ⟨1, ![1000000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1000000 : Shape := ⟨2, ![1, 1000000]⟩
abbrev S_ : Shape := ⟨0, ![]⟩
abbrev S50000 : Shape := ⟨1, ![50000]⟩
abbrev S1000000x1 : Shape := ⟨2, ![1000000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S1000000x128 : Shape := ⟨2, ![1000000, 128]⟩
abbrev S1x40 : Shape := ⟨2, ![1, 40]⟩
abbrev S50000x40 : Shape := ⟨2, ![50000, 40]⟩
abbrev S5000x40 : Shape := ⟨2, ![5000, 40]⟩
abbrev S1000000x40 : Shape := ⟨2, ![1000000, 40]⟩

abbrev nBuf : Space → Nat
  | .hbm => 139
  | .vmem => 57
  | .smem => 0
  | _ => 0

abbrev hbmTy0_0 (i : Nat) : BufTy := match i % 128 with
  | 0 => ⟨S50000x256, .f32⟩
  | 1 => ⟨S2x1000000, .i32⟩
  | 2 => ⟨S1000000, .f32⟩
  | 3 => ⟨S256x128, .f32⟩
  | 4 => ⟨S256x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x40, .f32⟩
  | 18 => ⟨S128x40, .f32⟩
  | 19 => ⟨S40, .f32⟩
  | 20 => ⟨S40, .f32⟩
  | 21 => ⟨S40, .f32⟩
  | 22 => ⟨S40, .f32⟩
  | 23 => ⟨S40, .f32⟩
  | 24 => ⟨S1x1000000, .i32⟩
  | 25 => ⟨S1000000, .i32⟩
  | 26 => ⟨S1x1000000, .i32⟩
  | 27 => ⟨S1000000, .i32⟩
  | 28 => ⟨S_, .f32⟩
  | 29 => ⟨S50000, .f32⟩
  | 30 => ⟨S1000000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .i1⟩
  | 38 => ⟨S_, .f32⟩
  | 39 => ⟨S_, .f32⟩
  | 40 => ⟨S50000, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000, .f32⟩
  | 56 => ⟨S1000000, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000, .f32⟩
  | 66 => ⟨S1000000, .f32⟩
  | 67 => ⟨S1x128, .f32⟩
  | 68 => ⟨S50000x128, .f32⟩
  | 69 => ⟨S50000x128, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x128, .f32⟩
  | 79 => ⟨S1000000x1, .f32⟩
  | 80 => ⟨S1000000x128, .f32⟩
  | 81 => ⟨S1000000x128, .f32⟩
  | 82 => ⟨S_, .f32⟩
  | 83 => ⟨S50000x128, .f32⟩
  | 84 => ⟨S1000000x1, .i32⟩
  | 85 => ⟨S50000x128, .f32⟩
  | 86 => ⟨S1x128, .f32⟩
  | 87 => ⟨S1x128, .f32⟩
  | 88 => ⟨S1x128, .f32⟩
  | 89 => ⟨S1x128, .f32⟩
  | 90 => ⟨S50000x128, .f32⟩
  | 91 => ⟨S1x128, .f32⟩
  | 92 => ⟨S50000x128, .f32⟩
  | 93 => ⟨S50000x128, .f32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x128, .f32⟩
  | 103 => ⟨S1000000x1, .f32⟩
  | 104 => ⟨S1000000x128, .f32⟩
  | 105 => ⟨S1000000x128, .f32⟩
  | 106 => ⟨S_, .f32⟩
  | 107 => ⟨S50000x128, .f32⟩
  | 108 => ⟨S1000000x1, .i32⟩
  | 109 => ⟨S50000x128, .f32⟩
  | 110 => ⟨S1x128, .f32⟩
  | 111 => ⟨S1x128, .f32⟩
  | 112 => ⟨S1x128, .f32⟩
  | 113 => ⟨S1x128, .f32⟩
  | 114 => ⟨S50000x128, .f32⟩
  | 115 => ⟨S1x40, .f32⟩
  | 116 => ⟨S50000x40, .f32⟩
  | 117 => ⟨S50000x40, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x40, .f32⟩
  | 127 => ⟨S1000000x1, .f32⟩
  | _ => ⟨S50000x256, .f32⟩

abbrev hbmTy0_1 (i : Nat) : BufTy := match i % 128 with
  | 0 => ⟨S1000000x40, .f32⟩
  | 1 => ⟨S1000000x40, .f32⟩
  | 2 => ⟨S_, .f32⟩
  | 3 => ⟨S50000x40, .f32⟩
  | 4 => ⟨S1000000x1, .i32⟩
  | 5 => ⟨S50000x40, .f32⟩
  | 6 => ⟨S1x40, .f32⟩
  | 7 => ⟨S1x40, .f32⟩
  | 8 => ⟨S1x40, .f32⟩
  | 9 => ⟨S1x40, .f32⟩
  | 10 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x40, .f32⟩
  | .local _ .vmem, ⟨41, _⟩ => ⟨S128x40, .f32⟩
  | .local _ .vmem, ⟨42, _⟩ => ⟨S1x40, .f32⟩
  | .local _ .vmem, ⟨43, _⟩ => ⟨S5000x40, .f32⟩
  | .local _ .vmem, ⟨44, _⟩ => ⟨S5000x40, .f32⟩
  | .local _ .vmem, ⟨45, _⟩ => ⟨S5000x40, .f32⟩
  | .local _ .vmem, ⟨46, _⟩ => ⟨S5000x40, .f32⟩
  | .local _ .vmem, ⟨47, _⟩ => ⟨S5000x40, .f32⟩
  | .local _ .vmem, ⟨48, _⟩ => ⟨S5000x40, .f32⟩
  | .local _ .vmem, ⟨49, _⟩ => ⟨S5000x40, .f32⟩
  | .local _ .vmem, ⟨50, _⟩ => ⟨S5000x40, .f32⟩
  | .local _ .vmem, ⟨51, _⟩ => ⟨S1x40, .f32⟩
  | .local _ .vmem, ⟨52, _⟩ => ⟨S1x40, .f32⟩
  | .local _ .vmem, ⟨53, _⟩ => ⟨S1x40, .f32⟩
  | .local _ .vmem, ⟨54, _⟩ => ⟨S1x40, .f32⟩
  | .local _ .vmem, ⟨55, _⟩ => ⟨S5000x40, .f32⟩
  | .local _ .vmem, ⟨56, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v13 : Ref sig .tc := ⟨.hbm, 46, rfl⟩
abbrev main_c : Ref sig .tc := ⟨.hbm, 47, rfl⟩
abbrev main_v14 : Ref sig .tc := ⟨.hbm, 48, rfl⟩
abbrev main_v15 : Ref sig .tc := ⟨.hbm, 49, rfl⟩
abbrev main_c_4 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c_5 : Ref sig .tc := ⟨.hbm, 57, rfl⟩
abbrev main_v22 : Ref sig .tc := ⟨.hbm, 58, rfl⟩
abbrev main_v23 : Ref sig .tc := ⟨.hbm, 59, rfl⟩
abbrev main_c_6 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31_0 : Ref sig .tc := ⟨.hbm, 68, rfl⟩
abbrev main_v31_1 : Ref sig .tc := ⟨.hbm, 69, rfl⟩
abbrev main_c_7 : Ref sig .tc := ⟨.hbm, 70, rfl⟩
abbrev main_v32 : Ref sig .tc := ⟨.hbm, 71, rfl⟩
abbrev main_v33 : Ref sig .tc := ⟨.hbm, 72, rfl⟩
abbrev main_c_8 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_9 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51_0 : Ref sig .tc := ⟨.hbm, 92, rfl⟩
abbrev main_v51_1 : Ref sig .tc := ⟨.hbm, 93, rfl⟩
abbrev main_c_10 : Ref sig .tc := ⟨.hbm, 94, rfl⟩
abbrev main_v52 : Ref sig .tc := ⟨.hbm, 95, rfl⟩
abbrev main_v53 : Ref sig .tc := ⟨.hbm, 96, rfl⟩
abbrev main_c_11 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_12 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71_0 : Ref sig .tc := ⟨.hbm, 116, rfl⟩
abbrev main_v71_1 : Ref sig .tc := ⟨.hbm, 117, rfl⟩
abbrev main_c_13 : Ref sig .tc := ⟨.hbm, 118, rfl⟩
abbrev main_v72 : Ref sig .tc := ⟨.hbm, 119, rfl⟩
abbrev main_v73 : Ref sig .tc := ⟨.hbm, 120, rfl⟩
abbrev main_c_14 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_15 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg6_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem4_1 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem6_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x40 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x40 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x40 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x40 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x40 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S50000 : S_.BroadcastsInDim S50000 (![] : Fin 0 → Fin S50000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S1000000x1_S1000000x40_0_1 : S1000000x1.BroadcastsInDim S1000000x40 (![0, 1] : Fin 2 → Fin S1000000x40.rank)
  bcast_S_S50000x40 : S_.BroadcastsInDim S50000x40 (![] : Fin 0 → Fin S50000x40.rank)
  shapeCasts_S5000x40_S5000x40 : S5000x40.ShapeCasts S5000x40
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  dot_S5000x256_S256x128_S5000x128_1_0_0_1_n_n_wf : DotDims.WF S5000x256 S256x128 S5000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S50000x40_S1000000x1_S1000000x40_1_0_n_n_0_1_140_wf : GatherDims.WF S50000x40 S1000000x1 S1000000x40 [1] [0] [] [0] [] 1 ![1, 40]
  scatter_S50000x40_S1000000x1_S1000000x40_1_0_0_1_wf : ScatterDims.WF S50000x40 S1000000x1 S1000000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x40.size a ≤ S50000x40.size a
  hwx4_4 : ∀ i : grid4.Coords, EltTy.bits .f32 = 32 ∨ (Rect.block (s := S50000x40) S5000x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x40.size a ≤ S50000x40.size a
  hwx4_5 : ∀ i : grid4.Coords, EltTy.bits .f32 = 32 ∨ (Rect.block (s := S50000x40) S5000x40.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x40.size a ≤ S50000x40.size a
  hwx5_1 : ∀ i : grid5.Coords, EltTy.bits .f32 = 32 ∨ (Rect.block (s := S50000x40) S5000x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x40.size a ≤ S1x40.size a
  hwx5_3 : ∀ i : grid5.Coords, EltTy.bits .f32 = 32 ∨ (Rect.block (s := S1x40) S1x40.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x40.size a ≤ S1x40.size a
  hwx5_4 : ∀ i : grid5.Coords, EltTy.bits .f32 = 32 ∨ (Rect.block (s := S1x40) S1x40.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x40.size a ≤ S1x40.size a
  hwx5_5 : ∀ i : grid5.Coords, EltTy.bits .f32 = 32 ∨ (Rect.block (s := S1x40) S1x40.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x40.size a ≤ S50000x40.size a
  hwx5_6 : ∀ i : grid5.Coords, EltTy.bits .f32 = 32 ∨ (Rect.block (s := S50000x40) S5000x40.size (cc5_transform_6 i) (hinb5_6 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S1000000x1_S1000000x40_1_0_n_n_0_1_140 : GatherDims S50000x40 S1000000x1 S1000000x40 where
  offsetDims := [1]
  collapsedSliceDims := [0]
  operandBatchingDims := []
  startIndicesBatchingDims := []
  startIndexMap := [0]
  indexVectorDim := 1
  sliceSizes := ![1, 40]
  wf := gather_S50000x40_S1000000x1_S1000000x40_1_0_n_n_0_1_140_wf
def scatter_S50000x40_S1000000x1_S1000000x40_1_0_0_1 : ScatterDims S50000x40 S1000000x1 S1000000x40 where
  updateWindowDims := [1]
  insertedWindowDims := [0]
  scatterDimsToOperandDims := [0]
  indexVectorDim := 1
  wf := scatter_S50000x40_S1000000x1_S1000000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v51_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg17) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg18) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71_0) S5000x40.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v71_1) S5000x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v84) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71_1) S5000x40.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x40.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S1x40.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v88) S1x40.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v89) S5000x40.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x1000000 : Shape := ⟨2, ![2, 1000000]⟩
abbrev S1000000 : Shape := ⟨1, ![1000000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1000000 : Shape := ⟨2, ![1, 1000000]⟩
abbrev S_ : Shape := ⟨0, ![]⟩
abbrev S50000 : Shape := ⟨1, ![50000]⟩
abbrev S1000000x1 : Shape := ⟨2, ![1000000, 1]⟩
abbrev S50000x128 : Shape := ⟨2, ![50000, 128]⟩
abbrev S1000000x128 : Shape := ⟨2, ![1000000, 128]⟩
abbrev S1x128 : Shape := ⟨2, ![1, 128]⟩
abbrev S50000x40 : Shape := ⟨2, ![50000, 40]⟩
abbrev S1000000x40 : Shape := ⟨2, ![1000000, 40]⟩
abbrev S1x40 : Shape := ⟨2, ![1, 40]⟩

abbrev nBuf : Space → Nat
  | .hbm => 187
  | .vmem => 0
  | .smem => 0
  | _ => 0

abbrev hbmTy0_0 (i : Nat) : BufTy := match i % 128 with
  | 0 => ⟨S50000x256, .f32⟩
  | 1 => ⟨S2x1000000, .i32⟩
  | 2 => ⟨S1000000, .f32⟩
  | 3 => ⟨S256x128, .f32⟩
  | 4 => ⟨S256x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x40, .f32⟩
  | 18 => ⟨S128x40, .f32⟩
  | 19 => ⟨S40, .f32⟩
  | 20 => ⟨S40, .f32⟩
  | 21 => ⟨S40, .f32⟩
  | 22 => ⟨S40, .f32⟩
  | 23 => ⟨S40, .f32⟩
  | 24 => ⟨S1x1000000, .i32⟩
  | 25 => ⟨S1000000, .i32⟩
  | 26 => ⟨S1x1000000, .i32⟩
  | 27 => ⟨S1000000, .i32⟩
  | 28 => ⟨S_, .f32⟩
  | 29 => ⟨S50000, .f32⟩
  | 30 => ⟨S1000000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .i1⟩
  | 38 => ⟨S_, .f32⟩
  | 39 => ⟨S_, .f32⟩
  | 40 => ⟨S50000, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000, .f32⟩
  | 56 => ⟨S1000000, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000, .f32⟩
  | 66 => ⟨S1000000, .f32⟩
  | 67 => ⟨S50000x128, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x128, .f32⟩
  | 77 => ⟨S1000000x1, .f32⟩
  | 78 => ⟨S1000000x128, .f32⟩
  | 79 => ⟨S1000000x128, .f32⟩
  | 80 => ⟨S_, .f32⟩
  | 81 => ⟨S50000x128, .f32⟩
  | 82 => ⟨S1000000x1, .i32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x128, .f32⟩
  | 118 => ⟨S1000000x1, .f32⟩
  | 119 => ⟨S1000000x128, .f32⟩
  | 120 => ⟨S1000000x128, .f32⟩
  | 121 => ⟨S_, .f32⟩
  | 122 => ⟨S50000x128, .f32⟩
  | 123 => ⟨S1000000x1, .i32⟩
  | 124 => ⟨S50000x128, .f32⟩
  | 125 => ⟨S50000x128, .f32⟩
  | 126 => ⟨S50000x128, .f32⟩
  | 127 => ⟨S1x128, .f32⟩
  | _ => ⟨S50000x256, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x40, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x40, .f32⟩
  | 31 => ⟨S1000000x1, .f32⟩
  | 32 => ⟨S1000000x40, .f32⟩
  | 33 => ⟨S1000000x40, .f32⟩
  | 34 => ⟨S_, .f32⟩
  | 35 => ⟨S50000x40, .f32⟩
  | 36 => ⟨S1000000x1, .i32⟩
  | 37 => ⟨S50000x40, .f32⟩
  | 38 => ⟨S50000x40, .f32⟩
  | 39 => ⟨S50000x40, .f32⟩
  | 40 => ⟨S1x40, .f32⟩
  | 41 => ⟨S50000x40, .f32⟩
  | 42 => ⟨S50000x40, .f32⟩
  | 43 => ⟨S1x40, .f32⟩
  | 44 => ⟨S50000x40, .f32⟩
  | 45 => ⟨S50000x40, .f32⟩
  | 46 => ⟨S_, .f32⟩
  | 47 => ⟨S40, .f32⟩
  | 48 => ⟨S40, .f32⟩
  | 49 => ⟨S40, .f32⟩
  | 50 => ⟨S1x40, .f32⟩
  | 51 => ⟨S50000x40, .f32⟩
  | 52 => ⟨S50000x40, .f32⟩
  | 53 => ⟨S1x40, .f32⟩
  | 54 => ⟨S50000x40, .f32⟩
  | 55 => ⟨S50000x40, .f32⟩
  | 56 => ⟨S1x40, .f32⟩
  | 57 => ⟨S50000x40, .f32⟩
  | 58 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v13 : Ref sig .tc := ⟨.hbm, 46, rfl⟩
abbrev main_c : Ref sig .tc := ⟨.hbm, 47, rfl⟩
abbrev main_v14 : Ref sig .tc := ⟨.hbm, 48, rfl⟩
abbrev main_v15 : Ref sig .tc := ⟨.hbm, 49, rfl⟩
abbrev main_c_4 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c_5 : Ref sig .tc := ⟨.hbm, 57, rfl⟩
abbrev main_v22 : Ref sig .tc := ⟨.hbm, 58, rfl⟩
abbrev main_v23 : Ref sig .tc := ⟨.hbm, 59, rfl⟩
abbrev main_c_6 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_c_7 : Ref sig .tc := ⟨.hbm, 68, rfl⟩
abbrev main_v31 : Ref sig .tc := ⟨.hbm, 69, rfl⟩
abbrev main_v32 : Ref sig .tc := ⟨.hbm, 70, rfl⟩
abbrev main_c_8 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_9 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_10 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_call2_cst : Ref sig .tc := ⟨.hbm, 105, rfl⟩
abbrev main_call2_v0 : Ref sig .tc := ⟨.hbm, 106, rfl⟩
abbrev main_v64 : Ref sig .tc := ⟨.hbm, 107, rfl⟩
abbrev main_v65 : Ref sig .tc := ⟨.hbm, 108, rfl⟩
abbrev main_c_11 : Ref sig .tc := ⟨.hbm, 109, rfl⟩
abbrev main_v66 : Ref sig .tc := ⟨.hbm, 110, rfl⟩
abbrev main_v67 : Ref sig .tc := ⟨.hbm, 111, rfl⟩
abbrev main_c_12 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_13 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_14 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_call3_cst : Ref sig .tc := ⟨.hbm, 146, rfl⟩
abbrev main_call3_v0 : Ref sig .tc := ⟨.hbm, 147, rfl⟩
abbrev main_v99 : Ref sig .tc := ⟨.hbm, 148, rfl⟩
abbrev main_v100 : Ref sig .tc := ⟨.hbm, 149, rfl⟩
abbrev main_c_15 : Ref sig .tc := ⟨.hbm, 150, rfl⟩
abbrev main_v101 : Ref sig .tc := ⟨.hbm, 151, rfl⟩
abbrev main_v102 : Ref sig .tc := ⟨.hbm, 152, rfl⟩
abbrev main_c_16 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_17 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_18 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S50000 : S_.BroadcastsInDim S50000 (![] : Fin 0 → Fin S50000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S1000000x1_S1000000x40_0_1 : S1000000x1.BroadcastsInDim S1000000x40 (![0, 1] : Fin 2 → Fin S1000000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S40 : S_.BroadcastsInDim S40 (![] : Fin 0 → Fin S40.rank)
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  dot_S50000x256_S256x128_S50000x128_1_0_0_1_n_n_wf : DotDims.WF S50000x256 S256x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S1000000x1_S1000000x40_1_0_n_n_0_1_140_wf : GatherDims.WF S50000x40 S1000000x1 S1000000x40 [1] [0] [] [0] [] 1 ![1, 40]
  scatter_S50000x40_S1000000x1_S1000000x40_1_0_0_1_wf : ScatterDims.WF S50000x40 S1000000x1 S1000000x40 [1] [0] [0] 1

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1000000x1_S1000000x40_1_0_n_n_0_1_140 : GatherDims S50000x40 S1000000x1 S1000000x40 where
  offsetDims := [1]
  collapsedSliceDims := [0]
  operandBatchingDims := []
  startIndicesBatchingDims := []
  startIndexMap := [0]
  indexVectorDim := 1
  sliceSizes := ![1, 40]
  wf := gather_S50000x40_S1000000x1_S1000000x40_1_0_n_n_0_1_140_wf
def scatter_S50000x40_S1000000x1_S1000000x40_1_0_0_1 : ScatterDims S50000x40 S1000000x1 S1000000x40 where
  updateWindowDims := [1]
  insertedWindowDims := [0]
  scatterDimsToOperandDims := [0]
  indexVectorDim := 1
  wf := scatter_S50000x40_S1000000x1_S1000000x40_1_0_0_1_wf

class Facts : Prop extends Facts₀ where

variable [Facts]
-- ==== Proof.KernelRun.lean ====
/-
  The idealized kernel program's run with its result kept: every weakly fair execution from a memory with zero
  counters terminates without a fault, its result array holds what the last segment boundary's contents assign to
  it, and the argument arrays end as launched.  The boundary contents are the fold of the host stretches and the
  six regions' write-backs through the program.
-/
import proofs.«170502_j73727408603583_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program's sixteen segments, the final state read at the result array and at every argument. -/
theorem run_result : θ_run defs (onTc (τ := τ) (main (F := F))) ⟨m, fun _ => 0, ρ⟩ (fun r => ∀ c : Dev nD,
      r.2.mem ((c.tc : Thread nD τ).loc main_v89) = W16 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v89 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c),
       (h c _ (mem_uc main_arg22 (by decide))).trans (W16_main_arg22 m ρ c),
       (h c _ (mem_uc main_arg23 (by decide))).trans (W16_main_arg23 m ρ c)⟩)

end Cert.KernelIdeal.RunValue

end
-- ==== Proof.KernelKept.lean ====
/-
  Buffers that a stretch of the program leaves alone.  No host operation and no region writes an argument array, and
  the two edge-endpoint arrays and the edge weights computed before the first region are written once: at every later
  segment boundary each of them still holds what it held before.
-/
import proofs.«170502_j73727408603583_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

/-- One host stretch does not write the buffer the goal reads. -/
macro "host_kept" ops:ident : tactic => `(tactic|
  refine (StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- One region does not have the buffer the goal reads among its arrays. -/
macro "reg_kept" l:ident : tactic => `(tactic| refine ($l:ident _ _ _ _ (by decide)).trans ?_)

variable {F : FTy → Type} [FloatOps F]
variable (m : (ℓ : Loc nD τ sig) → Buf (Elt F) ℓ) (ρ : Dev nD → PrngReg) (c : Dev nD)

theorem at5_arg0 : W5 m ρ c (Proc.devRef .tc main_arg0) = m ((c : Thread nD τ).loc main_arg0) := by
  host_kept hostOps0_4; host_kept hostOps0_3; host_kept hostOps0_2; host_kept hostOps0_1; host_kept hostOps0; rfl
theorem at5_arg3 : W5 m ρ c (Proc.devRef .tc main_arg3) = m ((c : Thread nD τ).loc main_arg3) := by
  host_kept hostOps0_4; host_kept hostOps0_3; host_kept hostOps0_2; host_kept hostOps0_1; host_kept hostOps0; rfl
theorem at5_arg4 : W5 m ρ c (Proc.devRef .tc main_arg4) = m ((c : Thread nD τ).loc main_arg4) := by
  host_kept hostOps0_4; host_kept hostOps0_3; host_kept hostOps0_2; host_kept hostOps0_1; host_kept hostOps0; rfl
theorem at4_arg5 : W4 m ρ c (Proc.devRef .tc main_arg5) = m ((c : Thread nD τ).loc main_arg5) := by
  host_kept hostOps0_3; host_kept hostOps0_2; host_kept hostOps0_1; host_kept hostOps0; rfl
theorem at6_arg6 : W6 m ρ c (Proc.devRef .tc main_arg6) = m ((c : Thread nD τ).loc main_arg6) := by
  reg_kept W6_of_ne; host_kept hostOps0_4; host_kept hostOps0_3; host_kept hostOps0_2; host_kept hostOps0_1; host_kept hostOps0; rfl
theorem at6_arg7 : W6 m ρ c (Proc.devRef .tc main_arg7) = m ((c : Thread nD τ).loc main_arg7) := by
  reg_kept W6_of_ne; host_kept hostOps0_4; host_kept hostOps0_3; host_kept hostOps0_2; host_kept hostOps0_1; host_kept hostOps0; rfl
theorem at6_arg8 : W6 m ρ c (Proc.devRef .tc main_arg8) = m ((c : Thread nD τ).loc main_arg8) := by
  reg_kept W6_of_ne; host_kept hostOps0_4; host_kept hostOps0_3; host_kept hostOps0_2; host_kept hostOps0_1; host_kept hostOps0; rfl
theorem at6_arg9 : W6 m ρ c (Proc.devRef .tc main_arg9) = m ((c : Thread nD τ).loc main_arg9) := by
  reg_kept W6_of_ne; host_kept hostOps0_4; host_kept hostOps0_3; host_kept hostOps0_2; host_kept hostOps0_1; host_kept hostOps0; rfl
theorem at8_arg12 : W8 m ρ c (Proc.devRef .tc main_arg12) = m ((c : Thread nD τ).loc main_arg12) := by
  reg_kept W8_of_ne; host_kept hostOps1; reg_kept W6_of_ne; host_kept hostOps0_4; host_kept hostOps0_3; host_kept hostOps0_2; host_kept hostOps0_1; host_kept hostOps0; rfl
theorem at9_arg10 : W9 m ρ c (Proc.devRef .tc main_arg10) = m ((c : Thread nD τ).loc main_arg10) := by
  host_kept hostOps2; reg_kept W8_of_ne; host_kept hostOps1; reg_kept W6_of_ne; host_kept hostOps0_4; host_kept hostOps0_3; host_kept hostOps0_2; host_kept hostOps0_1; host_kept hostOps0; rfl
theorem at9_arg11 : W9 m ρ c (Proc.devRef .tc main_arg11) = m ((c : Thread nD τ).loc main_arg11) := by
  host_kept hostOps2; reg_kept W8_of_ne; host_kept hostOps1; reg_kept W6_of_ne; host_kept hostOps0_4; host_kept hostOps0_3; host_kept hostOps0_2; host_kept hostOps0_1; host_kept hostOps0; rfl
theorem at10_arg13 : W10 m ρ c (Proc.devRef .tc main_arg13) = m ((c : Thread nD τ).loc main_arg13) := by
  reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at10_arg14 : W10 m ρ c (Proc.devRef .tc main_arg14) = m ((c : Thread nD τ).loc main_arg14) := by
  reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at10_arg15 : W10 m ρ c (Proc.devRef .tc main_arg15) = m ((c : Thread nD τ).loc main_arg15) := by
  reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at10_arg16 : W10 m ρ c (Proc.devRef .tc main_arg16) = m ((c : Thread nD τ).loc main_arg16) := by
  reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at12_arg19 : W12 m ρ c (Proc.devRef .tc main_arg19) = m ((c : Thread nD τ).loc main_arg19) := by
  reg_kept W12_of_ne; host_kept hostOps3; reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at13_arg17 : W13 m ρ c (Proc.devRef .tc main_arg17) = m ((c : Thread nD τ).loc main_arg17) := by
  host_kept hostOps4; reg_kept W12_of_ne; host_kept hostOps3; reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at13_arg18 : W13 m ρ c (Proc.devRef .tc main_arg18) = m ((c : Thread nD τ).loc main_arg18) := by
  host_kept hostOps4; reg_kept W12_of_ne; host_kept hostOps3; reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at14_arg20 : W14 m ρ c (Proc.devRef .tc main_arg20) = m ((c : Thread nD τ).loc main_arg20) := by
  reg_kept W14_of_ne; host_kept hostOps4; reg_kept W12_of_ne; host_kept hostOps3; reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at14_arg21 : W14 m ρ c (Proc.devRef .tc main_arg21) = m ((c : Thread nD τ).loc main_arg21) := by
  reg_kept W14_of_ne; host_kept hostOps4; reg_kept W12_of_ne; host_kept hostOps3; reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at14_arg22 : W14 m ρ c (Proc.devRef .tc main_arg22) = m ((c : Thread nD τ).loc main_arg22) := by
  reg_kept W14_of_ne; host_kept hostOps4; reg_kept W12_of_ne; host_kept hostOps3; reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at14_arg23 : W14 m ρ c (Proc.devRef .tc main_arg23) = m ((c : Thread nD τ).loc main_arg23) := by
  reg_kept W14_of_ne; host_kept hostOps4; reg_kept W12_of_ne; host_kept hostOps3; reg_kept W10_of_ne; host_kept hostOps2; reg_kept W8_of_ne; host_kept hostOps1; reg_kept W6_of_ne; host_kept hostOps0_4; host_kept hostOps0_3; host_kept hostOps0_2; host_kept hostOps0_1; host_kept hostOps0; rfl
theorem at6_v1 : W6 m ρ c (Proc.devRef .tc main_v1) = W5 m ρ c (Proc.devRef .tc main_v1) := by
  reg_kept W6_of_ne; rfl
theorem at10_v1 : W10 m ρ c (Proc.devRef .tc main_v1) = W5 m ρ c (Proc.devRef .tc main_v1) := by
  reg_kept W10_of_ne; host_kept hostOps2; reg_kept W8_of_ne; host_kept hostOps1; reg_kept W6_of_ne; rfl
theorem at14_v1 : W14 m ρ c (Proc.devRef .tc main_v1) = W5 m ρ c (Proc.devRef .tc main_v1) := by
  reg_kept W14_of_ne; host_kept hostOps4; reg_kept W12_of_ne; host_kept hostOps3; reg_kept W10_of_ne; host_kept hostOps2; reg_kept W8_of_ne; host_kept hostOps1; reg_kept W6_of_ne; rfl
theorem at6_v3 : W6 m ρ c (Proc.devRef .tc main_v3) = W5 m ρ c (Proc.devRef .tc main_v3) := by
  reg_kept W6_of_ne; rfl
theorem at10_v3 : W10 m ρ c (Proc.devRef .tc main_v3) = W5 m ρ c (Proc.devRef .tc main_v3) := by
  reg_kept W10_of_ne; host_kept hostOps2; reg_kept W8_of_ne; host_kept hostOps1; reg_kept W6_of_ne; rfl
theorem at14_v3 : W14 m ρ c (Proc.devRef .tc main_v3) = W5 m ρ c (Proc.devRef .tc main_v3) := by
  reg_kept W14_of_ne; host_kept hostOps4; reg_kept W12_of_ne; host_kept hostOps3; reg_kept W10_of_ne; host_kept hostOps2; reg_kept W8_of_ne; host_kept hostOps1; reg_kept W6_of_ne; rfl
theorem at6_v29 : W6 m ρ c (Proc.devRef .tc main_v29) = W5 m ρ c (Proc.devRef .tc main_v29) := by
  reg_kept W6_of_ne; rfl
theorem at10_v29 : W10 m ρ c (Proc.devRef .tc main_v29) = W5 m ρ c (Proc.devRef .tc main_v29) := by
  reg_kept W10_of_ne; host_kept hostOps2; reg_kept W8_of_ne; host_kept hostOps1; reg_kept W6_of_ne; rfl
theorem at14_v29 : W14 m ρ c (Proc.devRef .tc main_v29) = W5 m ρ c (Proc.devRef .tc main_v29) := by
  reg_kept W14_of_ne; host_kept hostOps4; reg_kept W12_of_ne; host_kept hostOps3; reg_kept W10_of_ne; host_kept hostOps2; reg_kept W8_of_ne; host_kept hostOps1; reg_kept W6_of_ne; rfl
theorem at7_v31_1 : W7 m ρ c (Proc.devRef .tc main_v31_1) = W6 m ρ c (Proc.devRef .tc main_v31_1) := by
  host_kept hostOps1; rfl
theorem at9_v49 : W9 m ρ c (Proc.devRef .tc main_v49) = W8 m ρ c (Proc.devRef .tc main_v49) := by
  host_kept hostOps2; rfl
theorem at11_v51_1 : W11 m ρ c (Proc.devRef .tc main_v51_1) = W10 m ρ c (Proc.devRef .tc main_v51_1) := by
  host_kept hostOps3; rfl
theorem at13_v69 : W13 m ρ c (Proc.devRef .tc main_v69) = W12 m ρ c (Proc.devRef .tc main_v69) := by
  host_kept hostOps4; rfl
theorem at15_v71_1 : W15 m ρ c (Proc.devRef .tc main_v71_1) = W14 m ρ c (Proc.devRef .tc main_v71_1) := by
  host_kept hostOps5; rfl

end Cert.KernelIdeal.Kept

end
-- ==== Proof.KernelPrefix.lean ====
/-
  The host prefix of the kernel program in the reference's terms: before the first region the two edge-endpoint
  arrays, the symmetric edge normalisation `dinv[src] · w · dinv[dst]` (with `dinv = rsqrt(deg)` where the degree is
  positive and 0 elsewhere) and the first bias row hold what the reference's operations of the same arguments give.
  Both programs spell this prefix with the same host operations, so each stage matches by unfolding.
-/
import proofs.«170502_j73727408603583_1_alg».proof.Proof.Gen.KernelIdeal.Frame
import proofs.«170502_j73727408603583_1_alg».proof.Proof.Gen.ReferenceIdeal.Read
import proofs.«170502_j73727408603583_1_alg».proof.Proof.KernelKept

set_option maxRecDepth 16384

noncomputable section

namespace Cert.KernelIdeal.Prefix

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable {F : FTy → Type} [FloatOps F]
variable (m : (ℓ : Loc nD τ sig) → Buf (Elt F) ℓ) (ρ : Dev nD → PrngReg) (c : Dev nD)

/-- The launch contents of the edge list, the edge weights and the first bias, each at its array type. -/
abbrev x1 : (⟨S2x1000000, .i32⟩ : BufTy).Contents (Elt F) := m ((c : Thread nD τ).loc main_arg1)
abbrev x2 : (⟨S1000000, .f32⟩ : BufTy).Contents (Elt F) := m ((c : Thread nD τ).loc main_arg2)
abbrev x5 : (⟨S128, .f32⟩ : BufTy).Contents (Elt F) := m ((c : Thread nD τ).loc main_arg5)

set_option maxHeartbeats 4000000

/-! ### Before the first region: the edge endpoints, the edge weights and the first bias row -/

/-- After the first stretch: the two endpoint arrays, the degree of every node (the scatter of the edge weights at the
    targets) and its two comparisons with zero. -/
theorem at1_v1 : W1 m ρ c (Proc.devRef .tc main_v1) = val_main_v1 (F := F) (x1 m c) := by
  dsimp only [W1, W0, hostOps0]
  after_results_simp <;> rfl
theorem at1_v3 : W1 m ρ c (Proc.devRef .tc main_v3) = val_main_v3 (F := F) (x1 m c) := by
  dsimp only [W1, W0, hostOps0]
  after_results_simp <;> rfl
theorem at1_v6 : W1 m ρ c (Proc.devRef .tc main_v6) = val_main_v6 (F := F) (x1 m c) (x2 m c) := by
  dsimp only [W1, W0, hostOps0]
  after_results_simp <;> rfl
theorem at1_v8 : W1 m ρ c (Proc.devRef .tc main_v8) = val_main_v8 (F := F) (x1 m c) (x2 m c) := by
  dsimp only [W1, W0, hostOps0]
  after_results_simp <;> rfl
theorem at1_v10 : W1 m ρ c (Proc.devRef .tc main_v10) = val_main_v10 (F := F) (x1 m c) (x2 m c) := by
  dsimp only [W1, W0, hostOps0]
  after_results_simp <;> rfl
theorem at1_cst_2 : W1 m ρ c (Proc.devRef .tc main_cst_2) = val_main_cst_2 (F := F) := by
  dsimp only [W1, W0, hostOps0]
  after_results_simp <;> rfl
theorem at1_arg2 : W1 m ρ c (Proc.devRef .tc main_arg2) = x2 m c := by
  host_kept hostOps0; rfl

/-- After the second stretch: the degree where it is positive, 1 elsewhere. -/
theorem at2_v11 : W2 m ρ c (Proc.devRef .tc main_v11) = val_main_v11 (F := F) (x1 m c) (x2 m c) := by
  have h0 := at1_v10 m ρ c
  have h1 := at1_v6 m ρ c
  have h2 := at1_cst_2 m ρ c
  dsimp only [W2]
  revert h0 h1 h2
  generalize W1 m ρ c = V
  intro h0 h1 h2
  dsimp only [hostOps0_1]
  after_results
  rw [h0, h1, h2]
  rfl
theorem at2_v8 : W2 m ρ c (Proc.devRef .tc main_v8) = val_main_v8 (F := F) (x1 m c) (x2 m c) := by
  host_kept hostOps0_1; exact at1_v8 m ρ c
theorem at2_v1 : W2 m ρ c (Proc.devRef .tc main_v1) = val_main_v1 (F := F) (x1 m c) := by
  host_kept hostOps0_1; exact at1_v1 m ρ c
theorem at2_v3 : W2 m ρ c (Proc.devRef .tc main_v3) = val_main_v3 (F := F) (x1 m c) := by
  host_kept hostOps0_1; exact at1_v3 m ρ c
theorem at2_arg2 : W2 m ρ c (Proc.devRef .tc main_arg2) = x2 m c := by
  host_kept hostOps0_1; exact at1_arg2 m ρ c

/-- After the third stretch: its inverse square root. -/
theorem at3_v12 : W3 m ρ c (Proc.devRef .tc main_v12) = val_main_v12 (F := F) (x1 m c) (x2 m c) := by
  have h0 := at2_v11 m ρ c
  dsimp only [W3]
  revert h0
  generalize W2 m ρ c = V
  intro h0
  dsimp only [hostOps0_2]
  after_results
  rw [h0]
  rfl
theorem at3_cst_3 : W3 m ρ c (Proc.devRef .tc main_cst_3) = val_main_cst_3 (F := F) := by
  dsimp only [W3]
  generalize W2 m ρ c = V
  dsimp only [hostOps0_2]
  after_results
  rfl
theorem at3_v8 : W3 m ρ c (Proc.devRef .tc main_v8) = val_main_v8 (F := F) (x1 m c) (x2 m c) := by
  host_kept hostOps0_2; exact at2_v8 m ρ c
theorem at3_v1 : W3 m ρ c (Proc.devRef .tc main_v1) = val_main_v1 (F := F) (x1 m c) := by
  host_kept hostOps0_2; exact at2_v1 m ρ c
theorem at3_v3 : W3 m ρ c (Proc.devRef .tc main_v3) = val_main_v3 (F := F) (x1 m c) := by
  host_kept hostOps0_2; exact at2_v3 m ρ c
theorem at3_arg2 : W3 m ρ c (Proc.devRef .tc main_arg2) = x2 m c := by
  host_kept hostOps0_2; exact at2_arg2 m ρ c

/-- After the fourth stretch: the inverse square root of the degree where it is positive, zero elsewhere. -/
theorem at4_v13 : W4 m ρ c (Proc.devRef .tc main_v13) = val_main_v13 (F := F) (x1 m c) (x2 m c) := by
  have h0 := at3_v8 m ρ c
  have h1 := at3_v12 m ρ c
  have h2 := at3_cst_3 m ρ c
  dsimp only [W4]
  revert h0 h1 h2
  generalize W3 m ρ c = V
  intro h0 h1 h2
  dsimp only [hostOps0_3]
  after_results
  rw [h0, h1, h2]
  rfl
theorem at4_v1 : W4 m ρ c (Proc.devRef .tc main_v1) = val_main_v1 (F := F) (x1 m c) := by
  host_kept hostOps0_3; exact at3_v1 m ρ c
theorem at4_v3 : W4 m ρ c (Proc.devRef .tc main_v3) = val_main_v3 (F := F) (x1 m c) := by
  host_kept hostOps0_3; exact at3_v3 m ρ c
theorem at4_arg2 : W4 m ρ c (Proc.devRef .tc main_arg2) = x2 m c := by
  host_kept hostOps0_3; exact at3_arg2 m ρ c

/-- Before the first region: the symmetric edge normalisation, the endpoint arrays and the first bias row. -/
theorem at5_v29 : W5 m ρ c (Proc.devRef .tc main_v29) = val_main_v29 (F := F) (x1 m c) (x2 m c) := by
  have h0 := at4_v13 m ρ c
  have h1 := at4_v1 m ρ c
  have h2 := at4_v3 m ρ c
  have h3 := at4_arg2 m ρ c
  dsimp only [W5]
  revert h0 h1 h2 h3
  generalize W4 m ρ c = V
  intro h0 h1 h2 h3
  dsimp only [hostOps0_4]
  after_results
  rw [h0, h1, h2, h3]
  rfl
theorem at5_v1 : W5 m ρ c (Proc.devRef .tc main_v1) = val_main_v1 (F := F) (x1 m c) := by
  host_kept hostOps0_4; exact at4_v1 m ρ c
theorem at5_v3 : W5 m ρ c (Proc.devRef .tc main_v3) = val_main_v3 (F := F) (x1 m c) := by
  host_kept hostOps0_4; exact at4_v3 m ρ c
theorem at5_v30 : W5 m ρ c (Proc.devRef .tc main_v30) = shapeCast S1x128 (x5 m c) shapeCasts_S128_S1x128 := by
  have h0 := Kept.at4_arg5 m ρ c
  dsimp only [W5]
  revert h0
  generalize W4 m ρ c = V
  intro h0
  dsimp only [hostOps0_4]
  after_results
  exact congrArg (fun x : (⟨S128, .f32⟩ : BufTy).Contents (Elt F) => shapeCast S1x128 x shapeCasts_S128_S1x128) h0

end Cert.KernelIdeal.Prefix

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.KernelBlocks.lean ====
/-
  The six kernel bodies' stored values at the ideal instance, read at one entry of the block.

  A dense body stores, at row `p` and column `q` of its block, the sum over `j` of the node-feature block's
  entry `(p, j)` times the weight's entry `(j, q)` (the narrowing of both operands to a shorter float format is
  the identity on the extended reals); its second output adds the bias row's entry `q`.  A combine body stores
  `((agg + self − mean_q) · rsqrt(var_q + ε)) · gamma_q + beta_q`, cut at zero from below in the first two layers.
-/
import proofs.«170502_j73727408603583_1_alg».proof.Proof.Gen.KernelIdeal.Skeleton
import proofs.«170502_j73727408603583_1_alg».proof.Proof.LibPlainDot
import proofs.«170502_j73727408603583_1_alg».proof.Proof.LibRowBroadcast
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.ValueIdx

/-! ## Region 0: a dense body on `[5000, 256] × [256, 128]` -/

theorem d0_l0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem d0_l1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem d0_r0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem d0_r1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first output: the product of the feature block with the aggregation weight, at entry `(p, q)`. -/
theorem k0_pay2_apply (v0 : Vec Ideal S5000x256 .f32) (w : Vec Ideal S256x128 .f32) (p : Fin 5000) (q : Fin 128) :
    k0_pay2 v0 w (ix2 p q) = ∑ j : Fin 256, v0 (ix2 p j) * w (ix2 j q) := by
  unfold k0_pay2 k0_pay1
  try simp only [shapeCast_self]
  exact PlainDot.matmul_zero_apply (φ₁ := .bf16) (φ₂ := .bf16) dot_S5000x256_S256x128_S5000x128_1_0_0_1_n_n none rfl rfl d0_l0 d0_l1 d0_r0 d0_r1 v0 w p q

/-- The second output: the product with the self weight plus the bias row, at entry `(p, q)`. -/
theorem k0_pay3_apply (v0 : Vec Ideal S5000x256 .f32) (w : Vec Ideal S256x128 .f32) (bias : Vec Ideal S1x128 .f32) (p : Fin 5000) (q : Fin 128) :
    k0_pay3 v0 w bias (ix2 p q) = (∑ j : Fin 256, v0 (ix2 p j) * w (ix2 j q)) + bias (ix2 (0 : Fin 1) q) := by
  have hm := PlainDot.matmul_zero_apply (φ₁ := .bf16) (φ₂ := .bf16) dot_S5000x256_S256x128_S5000x128_1_0_0_1_n_n none rfl rfl d0_l0 d0_l1 d0_r0 d0_r1 v0 w p q
  have hb : broadcastTo S5000x128 bias broadcasts_S1x128_S5000x128 (ix2 p q) = bias (ix2 (0 : Fin 1) q) :=
    RowBroadcast.broadcastTo_row_apply bias broadcasts_S1x128_S5000x128 p q
  unfold k0_pay3 k0_pay1
  simp only [shapeCast_self]
  show _ + _ = _
  exact congrArg₂ (· + ·) hm hb

/-! ## Region 2: a dense body on `[5000, 128] × [128, 128]` -/

theorem d2_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d2_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem d2_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem d2_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first output: the product of the feature block with the aggregation weight, at entry `(p, q)`. -/
theorem k2_pay2_apply (v0 : Vec Ideal S5000x128 .f32) (w : Vec Ideal S128x128 .f32) (p : Fin 5000) (q : Fin 128) :
    k2_pay2 v0 w (ix2 p q) = ∑ j : Fin 128, v0 (ix2 p j) * w (ix2 j q) := by
  unfold k2_pay2 k2_pay1
  try simp only [shapeCast_self]
  exact PlainDot.matmul_zero_apply (φ₁ := .bf16) (φ₂ := .bf16) dot_S5000x128_S128x128_S5000x128_1_0_0_1_n_n none rfl rfl d2_l0 d2_l1 d2_r0 d2_r1 v0 w p q

/-- The second output: the product with the self weight plus the bias row, at entry `(p, q)`. -/
theorem k2_pay3_apply (v0 : Vec Ideal S5000x128 .f32) (w : Vec Ideal S128x128 .f32) (bias : Vec Ideal S1x128 .f32) (p : Fin 5000) (q : Fin 128) :
    k2_pay3 v0 w bias (ix2 p q) = (∑ j : Fin 128, v0 (ix2 p j) * w (ix2 j q)) + bias (ix2 (0 : Fin 1) q) := by
  have hm := PlainDot.matmul_zero_apply (φ₁ := .bf16) (φ₂ := .bf16) dot_S5000x128_S128x128_S5000x128_1_0_0_1_n_n none rfl rfl d2_l0 d2_l1 d2_r0 d2_r1 v0 w p q
  have hb : broadcastTo S5000x128 bias broadcasts_S1x128_S5000x128 (ix2 p q) = bias (ix2 (0 : Fin 1) q) :=
    RowBroadcast.broadcastTo_row_apply bias broadcasts_S1x128_S5000x128 p q
  unfold k2_pay3 k2_pay1
  simp only [shapeCast_self]
  show _ + _ = _
  exact congrArg₂ (· + ·) hm hb

/-! ## Region 4: a dense body on `[5000, 128] × [128, 40]` -/

theorem d4_l0 (i : S5000x40.Idx) (q : dot_S5000x128_S128x40_S5000x40_1_0_0_1_n_n.contr.Idx) : (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem d4_l1 (i : S5000x40.Idx) (q : dot_S5000x128_S128x40_S5000x40_1_0_0_1_n_n.contr.Idx) : (dot_S5000x128_S128x40_S5000x40_1_0_0_1_n_n.lhsIdx i q 1).val = (q ⟨0, by decide⟩).val :=
  dot_S5000x128_S128x40_S5000x40_1_0_0_1_n_n.lhsIdx_val_of_single rfl i q
theorem d4_r0 (i : S5000x40.Idx) (q : dot_S5000x128_S128x40_S5000x40_1_0_0_1_n_n.contr.Idx) : (dot_S5000x128_S128x40_S5000x40_1_0_0_1_n_n.rhsIdx i q 0).val = (q ⟨0, by decide⟩).val :=
  dot_S5000x128_S128x40_S5000x40_1_0_0_1_n_n.rhsIdx_val_of_single rfl i q
theorem d4_r1 (i : S5000x40.Idx) (q : dot_S5000x128_S128x40_S5000x40_1_0_0_1_n_n.contr.Idx) : (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The first output: the product of the feature block with the aggregation weight, at entry `(p, q)`. -/
theorem k4_pay2_apply (v0 : Vec Ideal S5000x128 .f32) (w : Vec Ideal S128x40 .f32) (p : Fin 5000) (q : Fin 40) :
    k4_pay2 v0 w (ix2 p q) = ∑ j : Fin 128, v0 (ix2 p j) * w (ix2 j q) := by
  unfold k4_pay2 k4_pay1
  try simp only [shapeCast_self]
  exact PlainDot.matmul_zero_apply (φ₁ := .bf16) (φ₂ := .bf16) dot_S5000x128_S128x40_S5000x40_1_0_0_1_n_n none rfl rfl d4_l0 d4_l1 d4_r0 d4_r1 v0 w p q

/-- The second output: the product with the self weight plus the bias row, at entry `(p, q)`. -/
theorem k4_pay3_apply (v0 : Vec Ideal S5000x128 .f32) (w : Vec Ideal S128x40 .f32) (bias : Vec Ideal S1x40 .f32) (p : Fin 5000) (q : Fin 40) :
    k4_pay3 v0 w bias (ix2 p q) = (∑ j : Fin 128, v0 (ix2 p j) * w (ix2 j q)) + bias (ix2 (0 : Fin 1) q) := by
  have hm := PlainDot.matmul_zero_apply (φ₁ := .bf16) (φ₂ := .bf16) dot_S5000x128_S128x40_S5000x40_1_0_0_1_n_n none rfl rfl d4_l0 d4_l1 d4_r0 d4_r1 v0 w p q
  have hb : broadcastTo S5000x40 bias broadcasts_S1x40_S5000x40 (ix2 p q) = bias (ix2 (0 : Fin 1) q) :=
    RowBroadcast.broadcastTo_row_apply bias broadcasts_S1x40_S5000x40 p q
  unfold k4_pay3 k4_pay1
  simp only [shapeCast_self]
  show _ + _ = _
  exact congrArg₂ (· + ·) hm hb

/-! ## Region 1: a combine body on `[5000, 128]` -/

/-- The stored value at entry `(p, q)`: the two summands, the mean, the variance, the scale and the shift each read
    at column `q` of its row. -/
theorem k1_pay1_apply (v0 v2 : Vec Ideal S5000x128 .f32) (v5 v9 v16 v20 : Vec Ideal S1x128 .f32) (p : Fin 5000) (q : Fin 128) :
    k1_pay1 v0 v2 v5 v9 v16 v20 (ix2 p q) = max (((v0 (ix2 p q) + v2 (ix2 p q)) - v5 (ix2 (0 : Fin 1) q)) * Ideal.rsqrt (v9 (ix2 (0 : Fin 1) q) + Ideal.ofBits .f32 0x3A83126F#32) * v16 (ix2 (0 : Fin 1) q) + v20 (ix2 (0 : Fin 1) q)) (Ideal.ofBits .f32 0x00000000#32) := by
  have hrow : ∀ x : Vec Ideal S1x128 .f32, broadcastTo S5000x128 (shapeCast S1x128 x shapeCasts_S1x128_S1x128) broadcasts_S1x128_S5000x128 (ix2 p q) = x (ix2 (0 : Fin 1) q) := fun x => by
    rw [shapeCast_self]
    exact RowBroadcast.broadcastTo_row_apply x broadcasts_S1x128_S5000x128 p q
  have hrs : broadcastTo S5000x128 (rsqrt (addf (shapeCast S1x128 v9 shapeCasts_S1x128_S1x128) (broadcast S1x128 (Scalar.ofBits (F := Ideal) .f32 0x3A83126F#32)))) broadcasts_S1x128_S5000x128 (ix2 p q)
      = Ideal.rsqrt (v9 (ix2 (0 : Fin 1) q) + Ideal.ofBits .f32 0x3A83126F#32) := by
    rw [RowBroadcast.broadcastTo_row_apply, shapeCast_self]
    rfl
  unfold k1_pay1
  simp only [shapeCast_self (s := S5000x128)]
  show max (_ * _ * _ + _) _ = _
  rw [subf_apply, addf_apply, hrow v5, hrow v16, hrow v20, hrs]
  try rfl

/-! ## Region 3: a combine body on `[5000, 128]` -/

/-- The stored value at entry `(p, q)`: the two summands, the mean, the variance, the scale and the shift each read
    at column `q` of its row. -/
theorem k3_pay1_apply (v0 v2 : Vec Ideal S5000x128 .f32) (v5 v9 v16 v20 : Vec Ideal S1x128 .f32) (p : Fin 5000) (q : Fin 128) :
    k3_pay1 v0 v2 v5 v9 v16 v20 (ix2 p q) = max (((v0 (ix2 p q) + v2 (ix2 p q)) - v5 (ix2 (0 : Fin 1) q)) * Ideal.rsqrt (v9 (ix2 (0 : Fin 1) q) + Ideal.ofBits .f32 0x3A83126F#32) * v16 (ix2 (0 : Fin 1) q) + v20 (ix2 (0 : Fin 1) q)) (Ideal.ofBits .f32 0x00000000#32) := by
  have hrow : ∀ x : Vec Ideal S1x128 .f32, broadcastTo S5000x128 (shapeCast S1x128 x shapeCasts_S1x128_S1x128) broadcasts_S1x128_S5000x128 (ix2 p q) = x (ix2 (0 : Fin 1) q) := fun x => by
    rw [shapeCast_self]
    exact RowBroadcast.broadcastTo_row_apply x broadcasts_S1x128_S5000x128 p q
  have hrs : broadcastTo S5000x128 (rsqrt (addf (shapeCast S1x128 v9 shapeCasts_S1x128_S1x128) (broadcast S1x128 (Scalar.ofBits (F := Ideal) .f32 0x3A83126F#32)))) broadcasts_S1x128_S5000x128 (ix2 p q)
      = Ideal.rsqrt (v9 (ix2 (0 : Fin 1) q) + Ideal.ofBits .f32 0x3A83126F#32) := by
    rw [RowBroadcast.broadcastTo_row_apply, shapeCast_self]
    rfl
  unfold k3_pay1
  simp only [shapeCast_self (s := S5000x128)]
  show max (_ * _ * _ + _) _ = _
  rw [subf_apply, addf_apply, hrow v5, hrow v16, hrow v20, hrs]
  try rfl

/-! ## Region 5: a combine body on `[5000, 40]` -/

/-- The stored value at entry `(p, q)`: the two summands, the mean, the variance, the scale and the shift each read
    at column `q` of its row. -/
theorem k5_pay1_apply (v0 v2 : Vec Ideal S5000x40 .f32) (v5 v9 v16 v20 : Vec Ideal S1x40 .f32) (p : Fin 5000) (q : Fin 40) :
    k5_pay1 v0 v2 v5 v9 v16 v20 (ix2 p q) = ((v0 (ix2 p q) + v2 (ix2 p q)) - v5 (ix2 (0 : Fin 1) q)) * Ideal.rsqrt (v9 (ix2 (0 : Fin 1) q) + Ideal.ofBits .f32 0x3A83126F#32) * v16 (ix2 (0 : Fin 1) q) + v20 (ix2 (0 : Fin 1) q) := by
  have hrow : ∀ x : Vec Ideal S1x40 .f32, broadcastTo S5000x40 (shapeCast S1x40 x shapeCasts_S1x40_S1x40) broadcasts_S1x40_S5000x40 (ix2 p q) = x (ix2 (0 : Fin 1) q) := fun x => by
    rw [shapeCast_self]
    exact RowBroadcast.broadcastTo_row_apply x broadcasts_S1x40_S5000x40 p q
  have hrs : broadcastTo S5000x40 (rsqrt (addf (shapeCast S1x40 v9 shapeCasts_S1x40_S1x40) (broadcast S1x40 (Scalar.ofBits (F := Ideal) .f32 0x3A83126F#32)))) broadcasts_S1x40_S5000x40 (ix2 p q)
      = Ideal.rsqrt (v9 (ix2 (0 : Fin 1) q) + Ideal.ofBits .f32 0x3A83126F#32) := by
    rw [RowBroadcast.broadcastTo_row_apply, shapeCast_self]
    rfl
  unfold k5_pay1
  simp only [shapeCast_self (s := S5000x40)]
  show _ * _ * _ + _ = _
  rw [subf_apply, addf_apply, hrow v5, hrow v16, hrow v20, hrs]
  try rfl

end Cert.KernelIdeal.Blocks

end
-- ==== Proof.Region0.lean ====
/-
  Region 0, a layer's dense transform, as whole arrays.  Grid point `t` handles rows `5000·t … 5000·t + 4999` of the
  node features against the two resident weights and the bias row, so the blocks written back tile the two
  `[50000, 128]` results and each result is one function of the region's operands: the product with the aggregation
  weight, and the product with the self weight plus the bias row added to every row.
-/
import proofs.«170502_j73727408603583_1_alg».proof.Proof.Gen.KernelIdeal.Frame
import proofs.«170502_j73727408603583_1_alg».proof.Proof.KernelBlocks
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The product of a `[50000, 256]` array with a `[256, 128]` weight, entry by entry. -/
def prod (x : S50000x256.Idx → EReal) (w : S256x128.Idx → EReal) : S50000x128.Idx → EReal :=
  fun i => ∑ j : Fin 256, x (ix2 (i 0) j) * w (ix2 j (i 1))

/-- The same product plus a bias row. -/
def prodBias (x : S50000x256.Idx → EReal) (w : S256x128.Idx → EReal) (b : S1x128.Idx → EReal) : S50000x128.Idx → EReal :=
  fun i => (∑ j : Fin 256, x (ix2 (i 0) j) * w (ix2 j (i 1))) + b (ix2 (0 : Fin 1) (i 1))

/-- The windows' block indices at a grid point: the row-blocked windows sit at block `t`, the resident ones at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b)) (c : Dev nD)

set_option maxHeartbeats 1600000 in
/-- What point `t` writes back through output window 4 is block `t` of the product with the aggregation weight. -/
theorem flushed4_eq (t : Fin cfg0.N) :
    (dat0 V c).flushed 4 t = ((cfg0.win 4).blk t).view.read (Elt Ideal) (prod (V c main_arg0) (V c main_arg3)) := by
  show (cfg0.win 4).cut (grid0.coords t) ((dat0 V c).after 4 t) = _
  rw [after0_4]
  unfold out0_4
  rw [View.canon_unit_zero hz]
  simp only [View.ld_unit_zero (S := S5000x256) hz, View.ld_unit_zero (S := S256x128) hz]
  obtain ⟨e00, e01, e10, e11, -, -, -, -, e40, e41, -, -⟩ := idx_facts t
  funext y
  obtain ⟨p, q, rfl⟩ : ∃ (p : Fin 5000) (q : Fin 128), y = ix2 p q := ⟨y 0, y 1, eq_ix2 y⟩
  show k0_pay2 (iblk0 V c 0 t) (iblk0 V c 1 t) (ix2 p q)
    = prod (V c main_arg0) (V c main_arg3) (((cfg0.win 4).blk t).view.emb (ix2 p q))
  refine (Blocks.k0_pay2_apply (iblk0 V c 0 t) (iblk0 V c 1 t) p q).trans ?_
  unfold prod
  refine Finset.sum_congr rfl fun j _ => ?_
  have h0 : iblk0 V c 0 t (ix2 p j) = V c main_arg0 (ix2 ((((cfg0.win 4).blk t).view.emb (ix2 p q)) 0) j) := by
    show V c main_arg0 (((cfg0.win 0).blk t).view.emb (ix2 p j)) = _
    refine congrArg (V c main_arg0) (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 256 + 1 * j.val = j.val; omega
  have h1 : iblk0 V c 1 t (ix2 j q) = V c main_arg3 (ix2 j ((((cfg0.win 4).blk t).view.emb (ix2 p q)) 1)) := by
    show V c main_arg3 (((cfg0.win 1).blk t).view.emb (ix2 j q)) = _
    refine congrArg (V c main_arg3) (funext fun a => Fin.ext ?_)
    match a with
    | ⟨0, _⟩ => show win0_1.index t (0 : Fin 2) * 256 + 1 * j.val = j.val; omega
    | ⟨1, _⟩ => show win0_1.index t (1 : Fin 2) * 128 + 1 * q.val = win0_4.index t (1 : Fin 2) * 128 + 1 * q.val; omega
  rw [h0, h1]

set_option maxHeartbeats 1600000 in
/-- What point `t` writes back through output window 5 is block `t` of the product with the self weight plus the bias. -/
theorem flushed5_eq (t : Fin cfg0.N) :
    (dat0 V c).flushed 5 t = ((cfg0.win 5).blk t).view.read (Elt Ideal) (prodBias (V c main_arg0) (V c main_arg4) (V c main_v30)) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x128) hz, View.ld_unit_zero (S := S1x128) hz]
  obtain ⟨e00, e01, -, -, e20, e21, e30, e31, -, -, e50, e51⟩ := idx_facts t
  funext y
  obtain ⟨p, q, rfl⟩ : ∃ (p : Fin 5000) (q : Fin 128), y = ix2 p q := ⟨y 0, y 1, eq_ix2 y⟩
  show k0_pay3 (iblk0 V c 0 t) (iblk0 V c 2 t) (iblk0 V c 3 t) (ix2 p q)
    = prodBias (V c main_arg0) (V c main_arg4) (V c main_v30) (((cfg0.win 5).blk t).view.emb (ix2 p q))
  refine (Blocks.k0_pay3_apply (iblk0 V c 0 t) (iblk0 V c 2 t) (iblk0 V c 3 t) p q).trans ?_
  unfold prodBias
  have hb : iblk0 V c 3 t (ix2 (0 : Fin 1) q) = V c main_v30 (ix2 (0 : Fin 1) ((((cfg0.win 5).blk t).view.emb (ix2 p q)) 1)) := by
    show V c main_v30 (((cfg0.win 3).blk t).view.emb (ix2 (0 : Fin 1) q)) = _
    refine congrArg (V c main_v30) (funext fun a => Fin.ext ?_)
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega
  rw [hb]
  refine congrArg (· + _) (Finset.sum_congr rfl fun j _ => ?_)
  have h0 : iblk0 V c 0 t (ix2 p j) = V c main_arg0 (ix2 ((((cfg0.win 5).blk t).view.emb (ix2 p q)) 0) j) := by
    show V c main_arg0 (((cfg0.win 0).blk t).view.emb (ix2 p j)) = _
    refine congrArg (V c main_arg0) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 256 + 1 * j.val = j.val; omega
  have h1 : iblk0 V c 2 t (ix2 j q) = V c main_arg4 (ix2 j ((((cfg0.win 5).blk t).view.emb (ix2 p q)) 1)) := by
    show V c main_arg4 (((cfg0.win 2).blk t).view.emb (ix2 j q)) = _
    refine congrArg (V c main_arg4) (funext fun a => Fin.ext ?_)
    match a with
    | ⟨0, _⟩ => show win0_2.index t (0 : Fin 2) * 256 + 1 * j.val = j.val; omega
    | ⟨1, _⟩ => show win0_2.index t (1 : Fin 2) * 128 + 1 * q.val = win0_5.index t (1 : Fin 2) * 128 + 1 * q.val; omega
  rw [h0, h1]

/-- An index of a result array is in point `t`'s block iff each coordinate is in the block's range on its axis. -/
theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v31_0).slice (win0_4.rect t)).set ↔ _
  rw [View.set_slice_whole, Rect.mem_set_unit]
  exact Iff.rfl
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31_1).slice (win0_5.rect t)).set ↔ _
  rw [View.set_slice_whole, Rect.mem_set_unit]
  exact Iff.rfl

/-- Row `r` of a result lies in the block of point `r / 5000`. -/
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, tv⟩ : ∃ t : Fin cfg0.N, t.val = (i 0).val / 5000 := ⟨⟨(i 0).val / 5000, lt_of_lt_of_eq (by omega) N_0.symm⟩, rfl⟩
  obtain ⟨-, -, -, -, -, -, -, -, e40, e41, -, -⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega
theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, tv⟩ : ∃ t : Fin cfg0.N, t.val = (i 0).val / 5000 := ⟨⟨(i 0).val / 5000, lt_of_lt_of_eq (by omega) N_0.symm⟩, rfl⟩
  obtain ⟨-, -, -, -, -, -, -, -, -, -, e50, e51⟩ := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first result after the region: the product with the aggregation weight. -/
theorem final4 : (dat0 V c).arrAt 4 cfg0.N = prod (V c main_arg0) (V c main_arg3) :=
  (dat0 V c).arrAt_eq_of_cover 4 _ (fun t _ => flushed4_eq V c t) cover4

/-- The second result after the region: the product with the self weight plus the bias row. -/
theorem final5 : (dat0 V c).arrAt 5 cfg0.N = prodBias (V c main_arg0) (V c main_arg4) (V c main_v30) :=
  (dat0 V c).arrAt_eq_of_cover 5 _ (fun t _ => flushed5_eq V c t) cover5

end Cert.KernelIdeal.Region0

end
-- ==== Proof.Region1.lean ====
/-
  Region 1, a layer's combine step, as a whole array.  Grid point `t` handles rows `5000·t … 5000·t + 4999` of the
  aggregated messages and of the self term against the four resident `[1, 128]` rows (scale, shift, mean, variance), so
  the blocks written back tile the `[50000, 128]` result: entry `(P, q)` is
  `((agg + self − mean_q) · rsqrt(var_q + ε)) · gamma_q + beta_q`, cut at zero from below.
-/
import proofs.«170502_j73727408603583_1_alg».proof.Proof.Gen.KernelIdeal.Frame
import proofs.«170502_j73727408603583_1_alg».proof.Proof.KernelBlocks
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The combine step on whole arrays. -/
def comb (agg self : S50000x128.Idx → EReal) (gamma beta mean var : S1x128.Idx → EReal) : S50000x128.Idx → EReal :=
  fun i => max (((agg i + self i) - mean (ix2 (0 : Fin 1) (i 1))) * Ideal.rsqrt (var (ix2 (0 : Fin 1) (i 1)) + Ideal.ofBits .f32 0x3A83126F#32) * gamma (ix2 (0 : Fin 1) (i 1)) + beta (ix2 (0 : Fin 1) (i 1))) (Ideal.ofBits .f32 0x00000000#32)

/-- The windows' block indices at a grid point: the row-blocked windows sit at block `t`, the resident rows at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b)) (c : Dev nD)

set_option maxHeartbeats 1600000 in
/-- What point `t` writes back is block `t` of the combine step of the region's operands. -/
theorem flushed6_eq (t : Fin cfg1.N) :
    (dat1 V c).flushed 6 t = ((cfg1.win 6).blk t).view.read (Elt Ideal)
      (comb (V c main_v44) (V c main_v31_1) (V c main_v45) (V c main_v46) (V c main_v47) (V c main_v48)) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz]
  obtain ⟨e00, e01, e10, e11, e20, e21, e30, e31, e40, e41, e50, e51, e60, e61⟩ := idx_facts t
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 4 t) (iblk1 V c 5 t) (iblk1 V c 2 t) (iblk1 V c 3 t) (ix2 p q)
    = comb (V c main_v44) (V c main_v31_1) (V c main_v45) (V c main_v46) (V c main_v47) (V c main_v48) (((cfg1.win 6).blk t).view.emb (ix2 p q))
  refine (Blocks.k1_pay1_apply (iblk1 V c 0 t) (iblk1 V c 1 t) (iblk1 V c 4 t) (iblk1 V c 5 t) (iblk1 V c 2 t) (iblk1 V c 3 t) p q).trans ?_
  unfold comb
  beta_reduce
  have h0 : iblk1 V c 0 t (ix2 p q) = V c main_v44 (((cfg1.win 6).blk t).view.emb (ix2 p q)) := by
    show V c main_v44 (((cfg1.win 0).blk t).view.emb (ix2 p q)) = _
    refine congrArg (V c main_v44) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * q.val = win1_6.index t (1 : Fin 2) * 128 + 1 * q.val; omega
  have h1 : iblk1 V c 1 t (ix2 p q) = V c main_v31_1 (((cfg1.win 6).blk t).view.emb (ix2 p q)) := by
    show V c main_v31_1 (((cfg1.win 1).blk t).view.emb (ix2 p q)) = _
    refine congrArg (V c main_v31_1) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * q.val = win1_6.index t (1 : Fin 2) * 128 + 1 * q.val; omega
  have h2 : iblk1 V c 2 t (ix2 (0 : Fin 1) q) = V c main_v45 (ix2 (0 : Fin 1) ((((cfg1.win 6).blk t).view.emb (ix2 p q)) 1)) := by
    show V c main_v45 (((cfg1.win 2).blk t).view.emb (ix2 (0 : Fin 1) q)) = _
    refine congrArg (V c main_v45) (funext fun a => Fin.ext ?_)
    match a with
    | ⟨0, _⟩ => show win1_2.index t (0 : Fin 2) * 1 + 1 * 0 = 0; omega
    | ⟨1, _⟩ => show win1_2.index t (1 : Fin 2) * 128 + 1 * q.val = win1_6.index t (1 : Fin 2) * 128 + 1 * q.val; omega
  have h3 : iblk1 V c 3 t (ix2 (0 : Fin 1) q) = V c main_v46 (ix2 (0 : Fin 1) ((((cfg1.win 6).blk t).view.emb (ix2 p q)) 1)) := by
    show V c main_v46 (((cfg1.win 3).blk t).view.emb (ix2 (0 : Fin 1) q)) = _
    refine congrArg (V c main_v46) (funext fun a => Fin.ext ?_)
    match a with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega
  have h4 : iblk1 V c 4 t (ix2 (0 : Fin 1) q) = V c main_v47 (ix2 (0 : Fin 1) ((((cfg1.win 6).blk t).view.emb (ix2 p q)) 1)) := by
    show V c main_v47 (((cfg1.win 4).blk t).view.emb (ix2 (0 : Fin 1) q)) = _
    refine congrArg (V c main_v47) (funext fun a => Fin.ext ?_)
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  have h5 : iblk1 V c 5 t (ix2 (0 : Fin 1) q) = V c main_v48 (ix2 (0 : Fin 1) ((((cfg1.win 6).blk t).view.emb (ix2 p q)) 1)) := by
    show V c main_v48 (((cfg1.win 5).blk t).view.emb (ix2 (0 : Fin 1) q)) = _
    refine congrArg (V c main_v48) (funext fun a => Fin.ext ?_)
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  rw [h0, h1, h2, h3, h4, h5]

/-- An index of the result array is in point `t`'s block iff each coordinate is in the block's range on its axis. -/
theorem mem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v49).slice (win1_6.rect t)).set ↔ _
  rw [View.set_slice_whole, Rect.mem_set_unit]
  exact Iff.rfl

/-- Row `r` of the result lies in the block of point `r / 5000`. -/
theorem cover6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, tv⟩ : ∃ t : Fin cfg1.N, t.val = (i 0).val / 5000 := ⟨⟨(i 0).val / 5000, lt_of_lt_of_eq (by omega) N_1.symm⟩, rfl⟩
  obtain ⟨-, -, -, -, -, -, -, -, -, -, -, -, e60, e61⟩ := idx_facts t
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The result after the region: the combine step of the region's operands. -/
theorem final6 : (dat1 V c).arrAt 6 cfg1.N
    = comb (V c main_v44) (V c main_v31_1) (V c main_v45) (V c main_v46) (V c main_v47) (V c main_v48) :=
  (dat1 V c).arrAt_eq_of_cover 6 _ (fun t _ => flushed6_eq V c t) cover6

end Cert.KernelIdeal.Region1

end
-- ==== Proof.Region2.lean ====
/-
  Region 2, a layer's dense transform, as whole arrays.  Grid point `t` handles rows `5000·t … 5000·t + 4999` of the
  node features against the two resident weights and the bias row, so the blocks written back tile the two
  `[50000, 128]` results and each result is one function of the region's operands: the product with the aggregation
  weight, and the product with the self weight plus the bias row added to every row.
-/
import proofs.«170502_j73727408603583_1_alg».proof.Proof.Gen.KernelIdeal.Frame
import proofs.«170502_j73727408603583_1_alg».proof.Proof.KernelBlocks
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The product of a `[50000, 128]` array with a `[128, 128]` weight, entry by entry. -/
def prod (x : S50000x128.Idx → EReal) (w : S128x128.Idx → EReal) : S50000x128.Idx → EReal :=
  fun i => ∑ j : Fin 128, x (ix2 (i 0) j) * w (ix2 j (i 1))

/-- The same product plus a bias row. -/
def prodBias (x : S50000x128.Idx → EReal) (w : S128x128.Idx → EReal) (b : S1x128.Idx → EReal) : S50000x128.Idx → EReal :=
  fun i => (∑ j : Fin 128, x (ix2 (i 0) j) * w (ix2 j (i 1))) + b (ix2 (0 : Fin 1) (i 1))

/-- The windows' block indices at a grid point: the row-blocked windows sit at block `t`, the resident ones at 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b)) (c : Dev nD)

set_option maxHeartbeats 1600000 in
/-- What point `t` writes back through output window 4 is block `t` of the product with the aggregation weight. -/
theorem flushed4_eq (t : Fin cfg2.N) :
    (dat2 V c).flushed 4 t = ((cfg2.win 4).blk t).view.read (Elt Ideal) (prod (V c main_v49) (V c main_arg10)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz]
  obtain ⟨e00, e01, e10, e11, -, -, -, -, e40, e41, -, -⟩ := idx_facts t
  funext y
  obtain ⟨p, q, rfl⟩ : ∃ (p : Fin 5000) (q : Fin 128), y = ix2 p q := ⟨y 0, y 1, eq_ix2 y⟩
  show k2_pay2 (iblk2 V c 0 t) (iblk2 V c 1 t) (ix2 p q)
    = prod (V c main_v49) (V c main_arg10) (((cfg2.win 4).blk t).view.emb (ix2 p q))
  refine (Blocks.k2_pay2_apply (iblk2 V c 0 t) (iblk2 V c 1 t) p q).trans ?_
  unfold prod
  refine Finset.sum_congr rfl fun j _ => ?_
  have h0 : iblk2 V c 0 t (ix2 p j) = V c main_v49 (ix2 ((((cfg2.win 4).blk t).view.emb (ix2 p q)) 0) j) := by
    show V c main_v49 (((cfg2.win 0).blk t).view.emb (ix2 p j)) = _
    refine congrArg (V c main_v49) (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * j.val = j.val; omega
  have h1 : iblk2 V c 1 t (ix2 j q) = V c main_arg10 (ix2 j ((((cfg2.win 4).blk t).view.emb (ix2 p q)) 1)) := by
    show V c main_arg10 (((cfg2.win 1).blk t).view.emb (ix2 j q)) = _
    refine congrArg (V c main_arg10) (funext fun a => Fin.ext ?_)
    match a with
    | ⟨0, _⟩ => show win2_1.index t (0 : Fin 2) * 128 + 1 * j.val = j.val; omega
    | ⟨1, _⟩ => show win2_1.index t (1 : Fin 2) * 128 + 1 * q.val = win2_4.index t (1 : Fin 2) * 128 + 1 * q.val; omega
  rw [h0, h1]

set_option maxHeartbeats 1600000 in
/-- What point `t` writes back through output window 5 is block `t` of the product with the self weight plus the bias. -/
theorem flushed5_eq (t : Fin cfg2.N) :
    (dat2 V c).flushed 5 t = ((cfg2.win 5).blk t).view.read (Elt Ideal) (prodBias (V c main_v49) (V c main_arg11) (V c main_v50)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, -, -, e20, e21, e30, e31, -, -, e50, e51⟩ := idx_facts t
  funext y
  obtain ⟨p, q, rfl⟩ : ∃ (p : Fin 5000) (q : Fin 128), y = ix2 p q := ⟨y 0, y 1, eq_ix2 y⟩
  show k2_pay3 (iblk2 V c 0 t) (iblk2 V c 2 t) (iblk2 V c 3 t) (ix2 p q)
    = prodBias (V c main_v49) (V c main_arg11) (V c main_v50) (((cfg2.win 5).blk t).view.emb (ix2 p q))
  refine (Blocks.k2_pay3_apply (iblk2 V c 0 t) (iblk2 V c 2 t) (iblk2 V c 3 t) p q).trans ?_
  unfold prodBias
  have hb : iblk2 V c 3 t (ix2 (0 : Fin 1) q) = V c main_v50 (ix2 (0 : Fin 1) ((((cfg2.win 5).blk t).view.emb (ix2 p q)) 1)) := by
    show V c main_v50 (((cfg2.win 3).blk t).view.emb (ix2 (0 : Fin 1) q)) = _
    refine congrArg (V c main_v50) (funext fun a => Fin.ext ?_)
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  rw [hb]
  refine congrArg (· + _) (Finset.sum_congr rfl fun j _ => ?_)
  have h0 : iblk2 V c 0 t (ix2 p j) = V c main_v49 (ix2 ((((cfg2.win 5).blk t).view.emb (ix2 p q)) 0) j) := by
    show V c main_v49 (((cfg2.win 0).blk t).view.emb (ix2 p j)) = _
    refine congrArg (V c main_v49) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * j.val = j.val; omega
  have h1 : iblk2 V c 2 t (ix2 j q) = V c main_arg11 (ix2 j ((((cfg2.win 5).blk t).view.emb (ix2 p q)) 1)) := by
    show V c main_arg11 (((cfg2.win 2).blk t).view.emb (ix2 j q)) = _
    refine congrArg (V c main_arg11) (funext fun a => Fin.ext ?_)
    match a with
    | ⟨0, _⟩ => show win2_2.index t (0 : Fin 2) * 128 + 1 * j.val = j.val; omega
    | ⟨1, _⟩ => show win2_2.index t (1 : Fin 2) * 128 + 1 * q.val = win2_5.index t (1 : Fin 2) * 128 + 1 * q.val; omega
  rw [h0, h1]

/-- An index of a result array is in point `t`'s block iff each coordinate is in the block's range on its axis. -/
theorem mem_blk4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v51_0).slice (win2_4.rect t)).set ↔ _
  rw [View.set_slice_whole, Rect.mem_set_unit]
  exact Iff.rfl
theorem mem_blk5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v51_1).slice (win2_5.rect t)).set ↔ _
  rw [View.set_slice_whole, Rect.mem_set_unit]
  exact Iff.rfl

/-- Row `r` of a result lies in the block of point `r / 5000`. -/
theorem cover4 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, tv⟩ : ∃ t : Fin cfg2.N, t.val = (i 0).val / 5000 := ⟨⟨(i 0).val / 5000, lt_of_lt_of_eq (by omega) N_2.symm⟩, rfl⟩
  obtain ⟨-, -, -, -, -, -, -, -, e40, e41, -, -⟩ := idx_facts t
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega
theorem cover5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, tv⟩ : ∃ t : Fin cfg2.N, t.val = (i 0).val / 5000 := ⟨⟨(i 0).val / 5000, lt_of_lt_of_eq (by omega) N_2.symm⟩, rfl⟩
  obtain ⟨-, -, -, -, -, -, -, -, -, -, e50, e51⟩ := idx_facts t
  refine ⟨t, flush2_5 t, ?_⟩
  rw [mem_blk5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The first result after the region: the product with the aggregation weight. -/
theorem final4 : (dat2 V c).arrAt 4 cfg2.N = prod (V c main_v49) (V c main_arg10) :=
  (dat2 V c).arrAt_eq_of_cover 4 _ (fun t _ => flushed4_eq V c t) cover4

/-- The second result after the region: the product with the self weight plus the bias row. -/
theorem final5 : (dat2 V c).arrAt 5 cfg2.N = prodBias (V c main_v49) (V c main_arg11) (V c main_v50) :=
  (dat2 V c).arrAt_eq_of_cover 5 _ (fun t _ => flushed5_eq V c t) cover5

end Cert.KernelIdeal.Region2

end
-- ==== Proof.Region3.lean ====
/-
  Region 3, a layer's combine step, as a whole array.  Grid point `t` handles rows `5000·t … 5000·t + 4999` of the
  aggregated messages and of the self term against the four resident `[1, 128]` rows (scale, shift, mean, variance), so
  the blocks written back tile the `[50000, 128]` result: entry `(P, q)` is
  `((agg + self − mean_q) · rsqrt(var_q + ε)) · gamma_q + beta_q`, cut at zero from below.
-/
import proofs.«170502_j73727408603583_1_alg».proof.Proof.Gen.KernelIdeal.Frame
import proofs.«170502_j73727408603583_1_alg».proof.Proof.KernelBlocks
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The combine step on whole arrays. -/
def comb (agg self : S50000x128.Idx → EReal) (gamma beta mean var : S1x128.Idx → EReal) : S50000x128.Idx → EReal :=
  fun i => max (((agg i + self i) - mean (ix2 (0 : Fin 1) (i 1))) * Ideal.rsqrt (var (ix2 (0 : Fin 1) (i 1)) + Ideal.ofBits .f32 0x3A83126F#32) * gamma (ix2 (0 : Fin 1) (i 1)) + beta (ix2 (0 : Fin 1) (i 1))) (Ideal.ofBits .f32 0x00000000#32)

/-- The windows' block indices at a grid point: the row-blocked windows sit at block `t`, the resident rows at 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b)) (c : Dev nD)

set_option maxHeartbeats 1600000 in
/-- What point `t` writes back is block `t` of the combine step of the region's operands. -/
theorem flushed6_eq (t : Fin cfg3.N) :
    (dat3 V c).flushed 6 t = ((cfg3.win 6).blk t).view.read (Elt Ideal)
      (comb (V c main_v64) (V c main_v51_1) (V c main_v65) (V c main_v66) (V c main_v67) (V c main_v68)) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz]
  obtain ⟨e00, e01, e10, e11, e20, e21, e30, e31, e40, e41, e50, e51, e60, e61⟩ := idx_facts t
  funext y
  obtain ⟨p, q, rfl⟩ : ∃ (p : Fin 5000) (q : Fin 128), y = ix2 p q := ⟨y 0, y 1, eq_ix2 y⟩
  show k3_pay1 (iblk3 V c 0 t) (iblk3 V c 1 t) (iblk3 V c 4 t) (iblk3 V c 5 t) (iblk3 V c 2 t) (iblk3 V c 3 t) (ix2 p q)
    = comb (V c main_v64) (V c main_v51_1) (V c main_v65) (V c main_v66) (V c main_v67) (V c main_v68) (((cfg3.win 6).blk t).view.emb (ix2 p q))
  refine (Blocks.k3_pay1_apply (iblk3 V c 0 t) (iblk3 V c 1 t) (iblk3 V c 4 t) (iblk3 V c 5 t) (iblk3 V c 2 t) (iblk3 V c 3 t) p q).trans ?_
  unfold comb
  beta_reduce
  have h0 : iblk3 V c 0 t (ix2 p q) = V c main_v64 (((cfg3.win 6).blk t).view.emb (ix2 p q)) := by
    show V c main_v64 (((cfg3.win 0).blk t).view.emb (ix2 p q)) = _
    refine congrArg (V c main_v64) (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * q.val = win3_6.index t (1 : Fin 2) * 128 + 1 * q.val; omega
  have h1 : iblk3 V c 1 t (ix2 p q) = V c main_v51_1 (((cfg3.win 6).blk t).view.emb (ix2 p q)) := by
    show V c main_v51_1 (((cfg3.win 1).blk t).view.emb (ix2 p q)) = _
    refine congrArg (V c main_v51_1) (funext fun a => Fin.ext ?_)
    match a with
    | ⟨0, _⟩ => show win3_1.index t (0 : Fin 2) * 5000 + 1 * p.val = win3_6.index t (0 : Fin 2) * 5000 + 1 * p.val; omega
    | ⟨1, _⟩ => show win3_1.index t (1 : Fin 2) * 128 + 1 * q.val = win3_6.index t (1 : Fin 2) * 128 + 1 * q.val; omega
  have h2 : iblk3 V c 2 t (ix2 (0 : Fin 1) q) = V c main_v65 (ix2 (0 : Fin 1) ((((cfg3.win 6).blk t).view.emb (ix2 p q)) 1)) := by
    show V c main_v65 (((cfg3.win 2).blk t).view.emb (ix2 (0 : Fin 1) q)) = _
    refine congrArg (V c main_v65) (funext fun a => Fin.ext ?_)
    match a with
    | ⟨0, _⟩ => show win3_2.index t (0 : Fin 2) * 1 + 1 * 0 = 0; omega
    | ⟨1, _⟩ => show win3_2.index t (1 : Fin 2) * 128 + 1 * q.val = win3_6.index t (1 : Fin 2) * 128 + 1 * q.val; omega
  have h3 : iblk3 V c 3 t (ix2 (0 : Fin 1) q) = V c main_v66 (ix2 (0 : Fin 1) ((((cfg3.win 6).blk t).view.emb (ix2 p q)) 1)) := by
    show V c main_v66 (((cfg3.win 3).blk t).view.emb (ix2 (0 : Fin 1) q)) = _
    refine congrArg (V c main_v66) (funext fun a => Fin.ext ?_)
    match a with
    | ⟨0, _⟩ => show win3_3.index t (0 : Fin 2) * 1 + 1 * 0 = 0; omega
    | ⟨1, _⟩ => show win3_3.index t (1 : Fin 2) * 128 + 1 * q.val = win3_6.index t (1 : Fin 2) * 128 + 1 * q.val; omega
  have h4 : iblk3 V c 4 t (ix2 (0 : Fin 1) q) = V c main_v67 (ix2 (0 : Fin 1) ((((cfg3.win 6).blk t).view.emb (ix2 p q)) 1)) := by
    show V c main_v67 (((cfg3.win 4).blk t).view.emb (ix2 (0 : Fin 1) q)) = _
    refine congrArg (V c main_v67) (funext fun a => Fin.ext ?_)
    match a with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  have h5 : iblk3 V c 5 t (ix2 (0 : Fin 1) q) = V c main_v68 (ix2 (0 : Fin 1) ((((cfg3.win 6).blk t).view.emb (ix2 p q)) 1)) := by
    show V c main_v68 (((cfg3.win 5).blk t).view.emb (ix2 (0 : Fin 1) q)) = _
    refine congrArg (V c main_v68) (funext fun a => Fin.ext ?_)
    match a with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega
  rw [h0, h1, h2, h3, h4, h5]

/-- An index of the result array is in point `t`'s block iff each coordinate is in the block's range on its axis. -/
theorem mem_blk6 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v69).slice (win3_6.rect t)).set ↔ _
  rw [View.set_slice_whole, Rect.mem_set_unit]
  exact Iff.rfl

/-- Row `r` of the result lies in the block of point `r / 5000`. -/
theorem cover6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, tv⟩ : ∃ t : Fin cfg3.N, t.val = (i 0).val / 5000 := ⟨⟨(i 0).val / 5000, lt_of_lt_of_eq (by omega) N_3.symm⟩, rfl⟩
  obtain ⟨-, -, -, -, -, -, -, -, -, -, -, -, e60, e61⟩ := idx_facts t
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The result after the region: the combine step of the region's operands. -/
theorem final6 : (dat3 V c).arrAt 6 cfg3.N
    = comb (V c main_v64) (V c main_v51_1) (V c main_v65) (V c main_v66) (V c main_v67) (V c main_v68) :=
  (dat3 V c).arrAt_eq_of_cover 6 _ (fun t _ => flushed6_eq V c t) cover6

end Cert.KernelIdeal.Region3

end
-- ==== Proof.Region4.lean ====
/-
  Region 4, a layer's dense transform, as whole arrays.  Grid point `t` handles rows `5000·t … 5000·t + 4999` of the
  node features against the two resident weights and the bias row, so the blocks written back tile the two
  `[50000, 40]` results and each result is one function of the region's operands: the product with the aggregation
  weight, and the product with the self weight plus the bias row added to every row.
-/
import proofs.«170502_j73727408603583_1_alg».proof.Proof.Gen.KernelIdeal.Frame
import proofs.«170502_j73727408603583_1_alg».proof.Proof.KernelBlocks
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The product of a `[50000, 128]` array with a `[128, 40]` weight, entry by entry. -/
def prod (x : S50000x128.Idx → EReal) (w : S128x40.Idx → EReal) : S50000x40.Idx → EReal :=
  fun i => ∑ j : Fin 128, x (ix2 (i 0) j) * w (ix2 j (i 1))

/-- The same product plus a bias row. -/
def prodBias (x : S50000x128.Idx → EReal) (w : S128x40.Idx → EReal) (b : S1x40.Idx → EReal) : S50000x40.Idx → EReal :=
  fun i => (∑ j : Fin 128, x (ix2 (i 0) j) * w (ix2 j (i 1))) + b (ix2 (0 : Fin 1) (i 1))

/-- The windows' block indices at a grid point: the row-blocked windows sit at block `t`, the resident ones at 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b)) (c : Dev nD)

set_option maxHeartbeats 1600000 in
/-- What point `t` writes back through output window 4 is block `t` of the product with the aggregation weight. -/
theorem flushed4_eq (t : Fin cfg4.N) :
    (dat4 V c).flushed 4 t = ((cfg4.win 4).blk t).view.read (Elt Ideal) (prod (V c main_v69) (V c main_arg17)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x40) hz]
  obtain ⟨e00, e01, e10, e11, -, -, -, -, e40, e41, -, -⟩ := idx_facts t
  funext y
  obtain ⟨p, q, rfl⟩ : ∃ (p : Fin 5000) (q : Fin 40), y = ix2 p q := ⟨y 0, y 1, eq_ix2 y⟩
  show k4_pay2 (iblk4 V c 0 t) (iblk4 V c 1 t) (ix2 p q)
    = prod (V c main_v69) (V c main_arg17) (((cfg4.win 4).blk t).view.emb (ix2 p q))
  refine (Blocks.k4_pay2_apply (iblk4 V c 0 t) (iblk4 V c 1 t) p q).trans ?_
  unfold prod
  refine Finset.sum_congr rfl fun j _ => ?_
  have h0 : iblk4 V c 0 t (ix2 p j) = V c main_v69 (ix2 ((((cfg4.win 4).blk t).view.emb (ix2 p q)) 0) j) := by
    show V c main_v69 (((cfg4.win 0).blk t).view.emb (ix2 p j)) = _
    refine congrArg (V c main_v69) (funext fun a => Fin.ext ?_)
    match a with
    | ⟨0, _⟩ => show win4_0.index t (0 : Fin 2) * 5000 + 1 * p.val = win4_4.index t (0 : Fin 2) * 5000 + 1 * p.val; omega
    | ⟨1, _⟩ => show win4_0.index t (1 : Fin 2) * 128 + 1 * j.val = j.val; omega
  have h1 : iblk4 V c 1 t (ix2 j q) = V c main_arg17 (ix2 j ((((cfg4.win 4).blk t).view.emb (ix2 p q)) 1)) := by
    show V c main_arg17 (((cfg4.win 1).blk t).view.emb (ix2 j q)) = _
    refine congrArg (V c main_arg17) (funext fun a => Fin.ext ?_)
    match a with
    | ⟨0, _⟩ => show win4_1.index t (0 : Fin 2) * 128 + 1 * j.val = j.val; omega
    | ⟨1, _⟩ => show win4_1.index t (1 : Fin 2) * 40 + 1 * q.val = win4_4.index t (1 : Fin 2) * 40 + 1 * q.val; omega
  rw [h0, h1]

set_option maxHeartbeats 1600000 in
/-- What point `t` writes back through output window 5 is block `t` of the product with the self weight plus the bias. -/
theorem flushed5_eq (t : Fin cfg4.N) :
    (dat4 V c).flushed 5 t = ((cfg4.win 5).blk t).view.read (Elt Ideal) (prodBias (V c main_v69) (V c main_arg18) (V c main_v70)) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x40) hz, View.ld_unit_zero (S := S1x40) hz]
  obtain ⟨e00, e01, -, -, e20, e21, e30, e31, -, -, e50, e51⟩ := idx_facts t
  funext y
  obtain ⟨p, q, rfl⟩ : ∃ (p : Fin 5000) (q : Fin 40), y = ix2 p q := ⟨y 0, y 1, eq_ix2 y⟩
  show k4_pay3 (iblk4 V c 0 t) (iblk4 V c 2 t) (iblk4 V c 3 t) (ix2 p q)
    = prodBias (V c main_v69) (V c main_arg18) (V c main_v70) (((cfg4.win 5).blk t).view.emb (ix2 p q))
  refine (Blocks.k4_pay3_apply (iblk4 V c 0 t) (iblk4 V c 2 t) (iblk4 V c 3 t) p q).trans ?_
  unfold prodBias
  have hb : iblk4 V c 3 t (ix2 (0 : Fin 1) q) = V c main_v70 (ix2 (0 : Fin 1) ((((cfg4.win 5).blk t).view.emb (ix2 p q)) 1)) := by
    show V c main_v70 (((cfg4.win 3).blk t).view.emb (ix2 (0 : Fin 1) q)) = _
    refine congrArg (V c main_v70) (funext fun a => Fin.ext ?_)
    match a with
    | ⟨0, _⟩ => show win4_3.index t (0 : Fin 2) * 1 + 1 * 0 = 0; omega
    | ⟨1, _⟩ => show win4_3.index t (1 : Fin 2) * 40 + 1 * q.val = win4_5.index t (1 : Fin 2) * 40 + 1 * q.val; omega
  rw [hb]
  refine congrArg (· + _) (Finset.sum_congr rfl fun j _ => ?_)
  have h0 : iblk4 V c 0 t (ix2 p j) = V c main_v69 (ix2 ((((cfg4.win 5).blk t).view.emb (ix2 p q)) 0) j) := by
    show V c main_v69 (((cfg4.win 0).blk t).view.emb (ix2 p j)) = _
    refine congrArg (V c main_v69) (funext fun a => Fin.ext ?_)
    match a with
    | ⟨0, _⟩ => show win4_0.index t (0 : Fin 2) * 5000 + 1 * p.val = win4_5.index t (0 : Fin 2) * 5000 + 1 * p.val; omega
    | ⟨1, _⟩ => show win4_0.index t (1 : Fin 2) * 128 + 1 * j.val = j.val; omega
  have h1 : iblk4 V c 2 t (ix2 j q) = V c main_arg18 (ix2 j ((((cfg4.win 5).blk t).view.emb (ix2 p q)) 1)) := by
    show V c main_arg18 (((cfg4.win 2).blk t).view.emb (ix2 j q)) = _
    refine congrArg (V c main_arg18) (funext fun a => Fin.ext ?_)
    match a with
    | ⟨0, _⟩ => show win4_2.index t (0 : Fin 2) * 128 + 1 * j.val = j.val; omega
    | ⟨1, _⟩ => show win4_2.index t (1 : Fin 2) * 40 + 1 * q.val = win4_5.index t (1 : Fin 2) * 40 + 1 * q.val; omega
  rw [h0, h1]

/-- An index of a result array is in point `t`'s block iff each coordinate is in the block's range on its axis. -/
theorem mem_blk4 (t : Fin cfg4.N) (i : S50000x40.Idx) :
    i ∈ ((cfg4.win 4).blk t).view.set ↔ ∀ a : Fin 2, win4_4.index t a * S5000x40.size a ≤ (i a).val ∧ (i a).val < win4_4.index t a * S5000x40.size a + S5000x40.size a := by
  show i ∈ ((View.whole main_v71_0).slice (win4_4.rect t)).set ↔ _
  rw [View.set_slice_whole, Rect.mem_set_unit]
  exact Iff.rfl
theorem mem_blk5 (t : Fin cfg4.N) (i : S50000x40.Idx) :
    i ∈ ((cfg4.win 5).blk t).view.set ↔ ∀ a : Fin 2, win4_5.index t a * S5000x40.size a ≤ (i a).val ∧ (i a).val < win4_5.index t a * S5000x40.size a + S5000x40.size a := by
  show i ∈ ((View.whole main_v71_1).slice (win4_5.rect t)).set ↔ _
  rw [View.set_slice_whole, Rect.mem_set_unit]
  exact Iff.rfl

/-- Row `r` of a result lies in the block of point `r / 5000`. -/
theorem cover4 (i : S50000x40.Idx) : ∃ t : Fin cfg4.N, (cfg4.win 4).flush t = true ∧ i ∈ ((cfg4.win 4).blk t).view.set := by
  have hi0 : (i 0).val < 50000 := (i 0).isLt
  have hi1 : (i 1).val < 40 := (i 1).isLt
  obtain ⟨t, tv⟩ : ∃ t : Fin cfg4.N, t.val = (i 0).val / 5000 := ⟨⟨(i 0).val / 5000, lt_of_lt_of_eq (by omega) N_4.symm⟩, rfl⟩
  obtain ⟨-, -, -, -, -, -, -, -, e40, e41, -, -⟩ := idx_facts t
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 40 ≤ (i 1).val ∧ (i 1).val < win4_4.index t (1 : Fin 2) * 40 + 40; omega
theorem cover5 (i : S50000x40.Idx) : ∃ t : Fin cfg4.N, (cfg4.win 5).flush t = true ∧ i ∈ ((cfg4.win 5).blk t).view.set := by
  have hi0 : (i 0).val < 50000 := (i 0).isLt
  have hi1 : (i 1).val < 40 := (i 1).isLt
  obtain ⟨t, tv⟩ : ∃ t : Fin cfg4.N, t.val = (i 0).val / 5000 := ⟨⟨(i 0).val / 5000, lt_of_lt_of_eq (by omega) N_4.symm⟩, rfl⟩
  obtain ⟨-, -, -, -, -, -, -, -, -, -, e50, e51⟩ := idx_facts t
  refine ⟨t, flush4_5 t, ?_⟩
  rw [mem_blk5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 40 ≤ (i 1).val ∧ (i 1).val < win4_5.index t (1 : Fin 2) * 40 + 40; omega

/-- The first result after the region: the product with the aggregation weight. -/
theorem final4 : (dat4 V c).arrAt 4 cfg4.N = prod (V c main_v69) (V c main_arg17) :=
  (dat4 V c).arrAt_eq_of_cover 4 _ (fun t _ => flushed4_eq V c t) cover4

/-- The second result after the region: the product with the self weight plus the bias row. -/
theorem final5 : (dat4 V c).arrAt 5 cfg4.N = prodBias (V c main_v69) (V c main_arg18) (V c main_v70) :=
  (dat4 V c).arrAt_eq_of_cover 5 _ (fun t _ => flushed5_eq V c t) cover5

end Cert.KernelIdeal.Region4

end
-- ==== Proof.Region5.lean ====
/-
  Region 5, a layer's combine step, as a whole array.  Grid point `t` handles rows `5000·t … 5000·t + 4999` of the
  aggregated messages and of the self term against the four resident `[1, 40]` rows (scale, shift, mean, variance), so
  the blocks written back tile the `[50000, 40]` result: entry `(P, q)` is
  `((agg + self − mean_q) · rsqrt(var_q + ε)) · gamma_q + beta_q`.
-/
import proofs.«170502_j73727408603583_1_alg».proof.Proof.Gen.KernelIdeal.Frame
import proofs.«170502_j73727408603583_1_alg».proof.Proof.KernelBlocks
import Idealize.ShloMosaic.Lib.Pipeline.Value

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The combine step on whole arrays. -/
def comb (agg self : S50000x40.Idx → EReal) (gamma beta mean var : S1x40.Idx → EReal) : S50000x40.Idx → EReal :=
  fun i => ((agg i + self i) - mean (ix2 (0 : Fin 1) (i 1))) * Ideal.rsqrt (var (ix2 (0 : Fin 1) (i 1)) + Ideal.ofBits .f32 0x3A83126F#32) * gamma (ix2 (0 : Fin 1) (i 1)) + beta (ix2 (0 : Fin 1) (i 1))

/-- The windows' block indices at a grid point: the row-blocked windows sit at block `t`, the resident rows at 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

variable (V : (c : Dev nD) → (b : Ref sig .tc) → Buf (Elt Ideal) ((c : Thread nD τ).loc b)) (c : Dev nD)

set_option maxHeartbeats 1600000 in
/-- What point `t` writes back is block `t` of the combine step of the region's operands. -/
theorem flushed6_eq (t : Fin cfg5.N) :
    (dat5 V c).flushed 6 t = ((cfg5.win 6).blk t).view.read (Elt Ideal)
      (comb (V c main_v84) (V c main_v71_1) (V c main_v85) (V c main_v86) (V c main_v87) (V c main_v88)) := by
  show (cfg5.win 6).cut (grid5.coords t) ((dat5 V c).after 6 t) = _
  rw [after5_6]
  unfold out5_6
  rw [View.canon_unit_zero hz]
  simp only [View.ld_unit_zero (S := S5000x40) hz, View.ld_unit_zero (S := S1x40) hz]
  obtain ⟨e00, e01, e10, e11, e20, e21, e30, e31, e40, e41, e50, e51, e60, e61⟩ := idx_facts t
  funext y
  obtain ⟨p, q, rfl⟩ : ∃ (p : Fin 5000) (q : Fin 40), y = ix2 p q := ⟨y 0, y 1, eq_ix2 y⟩
  show k5_pay1 (iblk5 V c 0 t) (iblk5 V c 1 t) (iblk5 V c 4 t) (iblk5 V c 5 t) (iblk5 V c 2 t) (iblk5 V c 3 t) (ix2 p q)
    = comb (V c main_v84) (V c main_v71_1) (V c main_v85) (V c main_v86) (V c main_v87) (V c main_v88) (((cfg5.win 6).blk t).view.emb (ix2 p q))
  refine (Blocks.k5_pay1_apply (iblk5 V c 0 t) (iblk5 V c 1 t) (iblk5 V c 4 t) (iblk5 V c 5 t) (iblk5 V c 2 t) (iblk5 V c 3 t) p q).trans ?_
  unfold comb
  beta_reduce
  have h0 : iblk5 V c 0 t (ix2 p q) = V c main_v84 (((cfg5.win 6).blk t).view.emb (ix2 p q)) := by
    show V c main_v84 (((cfg5.win 0).blk t).view.emb (ix2 p q)) = _
    refine congrArg (V c main_v84) (funext fun a => Fin.ext ?_)
    match a with
    | ⟨0, _⟩ => show win5_0.index t (0 : Fin 2) * 5000 + 1 * p.val = win5_6.index t (0 : Fin 2) * 5000 + 1 * p.val; omega
    | ⟨1, _⟩ => show win5_0.index t (1 : Fin 2) * 40 + 1 * q.val = win5_6.index t (1 : Fin 2) * 40 + 1 * q.val; omega
  have h1 : iblk5 V c 1 t (ix2 p q) = V c main_v71_1 (((cfg5.win 6).blk t).view.emb (ix2 p q)) := by
    show V c main_v71_1 (((cfg5.win 1).blk t).view.emb (ix2 p q)) = _
    refine congrArg (V c main_v71_1) (funext fun a => Fin.ext ?_)
    match a with
    | ⟨0, _⟩ => show win5_1.index t (0 : Fin 2) * 5000 + 1 * p.val = win5_6.index t (0 : Fin 2) * 5000 + 1 * p.val; omega
    | ⟨1, _⟩ => show win5_1.index t (1 : Fin 2) * 40 + 1 * q.val = win5_6.index t (1 : Fin 2) * 40 + 1 * q.val; omega
  have h2 : iblk5 V c 2 t (ix2 (0 : Fin 1) q) = V c main_v85 (ix2 (0 : Fin 1) ((((cfg5.win 6).blk t).view.emb (ix2 p q)) 1)) := by
    show V c main_v85 (((cfg5.win 2).blk t).view.emb (ix2 (0 : Fin 1) q)) = _
    refine congrArg (V c main_v85) (funext fun a => Fin.ext ?_)
    match a with
    | ⟨0, _⟩ => show win5_2.index t (0 : Fin 2) * 1 + 1 * 0 = 0; omega
    | ⟨1, _⟩ => show win5_2.index t (1 : Fin 2) * 40 + 1 * q.val = win5_6.index t (1 : Fin 2) * 40 + 1 * q.val; omega
  have h3 : iblk5 V c 3 t (ix2 (0 : Fin 1) q) = V c main_v86 (ix2 (0 : Fin 1) ((((cfg5.win 6).blk t).view.emb (ix2 p q)) 1)) := by
    show V c main_v86 (((cfg5.win 3).blk t).view.emb (ix2 (0 : Fin 1) q)) = _
    refine congrArg (V c main_v86) (funext fun a => Fin.ext ?_)
    match a with
    | ⟨0, _⟩ => show win5_3.index t (0 : Fin 2) * 1 + 1 * 0 = 0; omega
    | ⟨1, _⟩ => show win5_3.index t (1 : Fin 2) * 40 + 1 * q.val = win5_6.index t (1 : Fin 2) * 40 + 1 * q.val; omega
  have h4 : iblk5 V c 4 t (ix2 (0 : Fin 1) q) = V c main_v87 (ix2 (0 : Fin 1) ((((cfg5.win 6).blk t).view.emb (ix2 p q)) 1)) := by
    show V c main_v87 (((cfg5.win 4).blk t).view.emb (ix2 (0 : Fin 1) q)) = _
    refine congrArg (V c main_v87) (funext fun a => Fin.ext ?_)
    match a with
    | ⟨0, _⟩ => show win5_4.index t (0 : Fin 2) * 1 + 1 * 0 = 0; omega
    | ⟨1, _⟩ => show win5_4.index t (1 : Fin 2) * 40 + 1 * q.val = win5_6.index t (1 : Fin 2) * 40 + 1 * q.val; omega
  have h5 : iblk5 V c 5 t (ix2 (0 : Fin 1) q) = V c main_v88 (ix2 (0 : Fin 1) ((((cfg5.win 6).blk t).view.emb (ix2 p q)) 1)) := by
    show V c main_v88 (((cfg5.win 5).blk t).view.emb (ix2 (0 : Fin 1) q)) = _
    refine congrArg (V c main_v88) (funext fun a => Fin.ext ?_)
    match a with
    | ⟨0, _⟩ => show win5_5.index t (0 : Fin 2) * 1 + 1 * 0 = 0; omega
    | ⟨1, _⟩ => show win5_5.index t (1 : Fin 2) * 40 + 1 * q.val = win5_6.index t (1 : Fin 2) * 40 + 1 * q.val; omega
  rw [h0, h1, h2, h3, h4, h5]

/-- An index of the result array is in point `t`'s block iff each coordinate is in the block's range on its axis. -/
theorem mem_blk6 (t : Fin cfg5.N) (i : S50000x40.Idx) :
    i ∈ ((cfg5.win 6).blk t).view.set ↔ ∀ a : Fin 2, win5_6.index t a * S5000x40.size a ≤ (i a).val ∧ (i a).val < win5_6.index t a * S5000x40.size a + S5000x40.size a := by
  show i ∈ ((View.whole main_v89).slice (win5_6.rect t)).set ↔ _
  rw [View.set_slice_whole, Rect.mem_set_unit]
  exact Iff.rfl

/-- Row `r` of the result lies in the block of point `r / 5000`. -/
theorem cover6 (i : S50000x40.Idx) : ∃ t : Fin cfg5.N, (cfg5.win 6).flush t = true ∧ i ∈ ((cfg5.win 6).blk t).view.set := by
  have hi0 : (i 0).val < 50000 := (i 0).isLt
  have hi1 : (i 1).val < 40 := (i 1).isLt
  obtain ⟨t, tv⟩ : ∃ t : Fin cfg5.N, t.val = (i 0).val / 5000 := ⟨⟨(i 0).val / 5000, lt_of_lt_of_eq (by omega) N_5.symm⟩, rfl⟩
  obtain ⟨-, -, -, -, -, -, -, -, -, -, -, -, e60, e61⟩ := idx_facts t
  refine ⟨t, flush5_6 t, ?_⟩
  rw [mem_blk6]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 40 ≤ (i 1).val ∧ (i 1).val < win5_6.index t (1 : Fin 2) * 40 + 40; omega

/-- The result after the region: the combine step of the region's operands. -/
theorem final6 : (dat5 V c).arrAt 6 cfg5.N
    = comb (V c main_v84) (V c main_v71_1) (V c main_v85) (V c main_v86) (V c main_v87) (V c main_v88) :=
  (dat5 V c).arrAt_eq_of_cover 6 _ (fun t _ => flushed6_eq V c t) cover6

end Cert.KernelIdeal.Region5

end
-- ==== Proof.RefEntries.lean ====
/-
  The reference's matrix products read at one entry: the host's contraction of a `[50000, k]` array with a
  `[k, b]` weight is, at row `P` and column `q`, the sum over `j` of the products of the entries `(P, j)` and `(j, q)`.
-/
import proofs.«170502_j73727408603583_1_alg».proof.Proof.Gen.ReferenceIdeal.Read
import proofs.«170502_j73727408603583_1_alg».proof.Proof.LibPlainDot

noncomputable section

namespace Cert.ReferenceIdeal.Entries

open Cert.ReferenceIdeal Cert.ReferenceIdeal.Read Idealize.ShloMosaic Idealize.ShloMosaic.ValueIdx

theorem dot_v30_apply (lhs : FVec Ideal S50000x256 .f32) (rhs : FVec Ideal S256x128 .f32) (p : Fin 50000) (q : Fin 128) :
    Host.dotGeneral (F := Ideal) dot_S50000x256_S256x128_S50000x128_1_0_0_1_n_n none lhs rhs (ix2 p q) = ∑ j : Fin 256, lhs (ix2 p j) * rhs (ix2 j q) :=
  PlainDot.dotGeneral_apply dot_S50000x256_S256x128_S50000x128_1_0_0_1_n_n none rfl rfl lhs_main_v30_0 lhs_main_v30_1 rhs_main_v30_0 rhs_main_v30_1 lhs rhs p q

theorem dot_v44_apply (lhs : FVec Ideal S50000x256 .f32) (rhs : FVec Ideal S256x128 .f32) (p : Fin 50000) (q : Fin 128) :
    Host.dotGeneral (F := Ideal) dot_S50000x256_S256x128_S50000x128_1_0_0_1_n_n none lhs rhs (ix2 p q) = ∑ j : Fin 256, lhs (ix2 p j) * rhs (ix2 j q) :=
  PlainDot.dotGeneral_apply dot_S50000x256_S256x128_S50000x128_1_0_0_1_n_n none rfl rfl lhs_main_v44_0 lhs_main_v44_1 rhs_main_v44_0 rhs_main_v44_1 lhs rhs p q

theorem dot_v65_apply (lhs : FVec Ideal S50000x128 .f32) (rhs : FVec Ideal S128x128 .f32) (p : Fin 50000) (q : Fin 128) :
    Host.dotGeneral (F := Ideal) dot_S50000x128_S128x128_S50000x128_1_0_0_1_n_n none lhs rhs (ix2 p q) = ∑ j : Fin 128, lhs (ix2 p j) * rhs (ix2 j q) :=
  PlainDot.dotGeneral_apply dot_S50000x128_S128x128_S50000x128_1_0_0_1_n_n none rfl rfl lhs_main_v65_0 lhs_main_v65_1 rhs_main_v65_0 rhs_main_v65_1 lhs rhs p q

theorem dot_v79_apply (lhs : FVec Ideal S50000x128 .f32) (rhs : FVec Ideal S128x128 .f32) (p : Fin 50000) (q : Fin 128) :
    Host.dotGeneral (F := Ideal) dot_S50000x128_S128x128_S50000x128_1_0_0_1_n_n none lhs rhs (ix2 p q) = ∑ j : Fin 128, lhs (ix2 p j) * rhs (ix2 j q) :=
  PlainDot.dotGeneral_apply dot_S50000x128_S128x128_S50000x128_1_0_0_1_n_n none rfl rfl lhs_main_v79_0 lhs_main_v79_1 rhs_main_v79_0 rhs_main_v79_1 lhs rhs p q

theorem dot_v100_apply (lhs : FVec Ideal S50000x128 .f32) (rhs : FVec Ideal S128x40 .f32) (p : Fin 50000) (q : Fin 40) :
    Host.dotGeneral (F := Ideal) dot_S50000x128_S128x40_S50000x40_1_0_0_1_n_n none lhs rhs (ix2 p q) = ∑ j : Fin 128, lhs (ix2 p j) * rhs (ix2 j q) :=
  PlainDot.dotGeneral_apply dot_S50000x128_S128x40_S50000x40_1_0_0_1_n_n none rfl rfl lhs_main_v100_0 lhs_main_v100_1 rhs_main_v100_0 rhs_main_v100_1 lhs rhs p q

theorem dot_v114_apply (lhs : FVec Ideal S50000x128 .f32) (rhs : FVec Ideal S128x40 .f32) (p : Fin 50000) (q : Fin 40) :
    Host.dotGeneral (F := Ideal) dot_S50000x128_S128x40_S50000x40_1_0_0_1_n_n none lhs rhs (ix2 p q) = ∑ j : Fin 128, lhs (ix2 p j) * rhs (ix2 j q) :=
  PlainDot.dotGeneral_apply dot_S50000x128_S128x40_S50000x40_1_0_0_1_n_n none rfl rfl lhs_main_v114_0 lhs_main_v114_1 rhs_main_v114_0 rhs_main_v114_1 lhs rhs p q

end Cert.ReferenceIdeal.Entries

end
-- ==== Proof.RefLayer.lean ====
/-
  The reference's per-layer tail as one expression of its pieces, and that expression read at an entry.

  After the scatter of the weighted messages (`agg`) and the product with the self weight (`sw`), a layer adds the two,
  adds the bias, subtracts the moving mean, multiplies by `rsqrt(var + ε)` and by the scale, adds the shift, and (first
  two layers) cuts at zero; the five `[b]` vectors are laid as a row and repeated down the rows.  Read at `(p, q)` every
  vector contributes its entry `q`.
-/
import proofs.«170502_j73727408603583_1_alg».proof.Proof.Gen.ReferenceIdeal.Read
import proofs.«170502_j73727408603583_1_alg».proof.Proof.LibRowBroadcast
import Idealize.ShloMosaic.Lib.ValueIdx
import Idealize.ShloMosaic.Lib.Pipeline.Value

noncomputable section

namespace Cert.ReferenceIdeal.Layer

open Cert.ReferenceIdeal Cert.ReferenceIdeal.Gen Cert.ReferenceIdeal.Read Idealize.ShloMosaic Idealize.ShloMosaic.ValueIdx

/-- A scalar repeated over a shape, at an index. -/
theorem scalar_bcast_apply {t : Shape} (h : S_.BroadcastsInDim t ![]) (x : S_.Idx → EReal) (j : t.Idx) :
    broadcastInDim t ![] h x j = x ix0 :=
  broadcastInDim_apply ![] h x j ix0 (fun a => a.elim0)

/-- A `[128]` vector laid as a row and repeated down 50000 rows. -/
def rowB128 (x : FVec Ideal S128 .f32) : FVec Ideal S50000x128 .f32 :=
  broadcastInDim S50000x128 ![0, 1] bcast_S1x128_S50000x128_0_1 (broadcastInDim S1x128 ![1] bcast_S128_S1x128_1 x)

theorem rowB128_apply (x : FVec Ideal S128 .f32) (p : Fin 50000) (q : Fin 128) : rowB128 x (ix2 p q) = x (ix1 q) := by
  unfold rowB128
  rw [RowBroadcast.broadcastInDim_row_apply ![0, 1] rfl rfl, RowBroadcast.broadcastInDim_flat_apply ![1] rfl]

/-- A `[40]` vector laid as a row and repeated down 50000 rows. -/
def rowB40 (x : FVec Ideal S40 .f32) : FVec Ideal S50000x40 .f32 :=
  broadcastInDim S50000x40 ![0, 1] bcast_S1x40_S50000x40_0_1 (broadcastInDim S1x40 ![1] bcast_S40_S1x40_1 x)

theorem rowB40_apply (x : FVec Ideal S40 .f32) (p : Fin 50000) (q : Fin 40) : rowB40 x (ix2 p q) = x (ix1 q) := by
  unfold rowB40
  rw [RowBroadcast.broadcastInDim_row_apply ![0, 1] rfl rfl, RowBroadcast.broadcastInDim_flat_apply ![1] rfl]

/-- The normalisation factor of a layer: `rsqrt(var + ε)` entry by entry. -/
def factor128 (va : FVec Ideal S128 .f32) : FVec Ideal S128 .f32 :=
  Host.rsqrt (addf va (broadcastInDim S128 ![] bcast_S_S128 (constant S_ .f32 0x3A83126F#32)))
def factor40 (va : FVec Ideal S40 .f32) : FVec Ideal S40 .f32 :=
  Host.rsqrt (addf va (broadcastInDim S40 ![] bcast_S_S40 (constant S_ .f32 0x3A83126F#32)))

theorem factor128_apply (va : FVec Ideal S128 .f32) (q : Fin 128) :
    factor128 va (ix1 q) = Ideal.rsqrt (va (ix1 q) + Ideal.ofBits .f32 0x3A83126F#32) := by
  unfold factor128
  show FloatOps.hostUnary .rsqrt (va (ix1 q) + broadcastInDim S128 ![] bcast_S_S128 (constant S_ .f32 0x3A83126F#32) (ix1 q)) = _
  rw [scalar_bcast_apply, Ideal.hostUnary_rsqrt_def]
  rfl
theorem factor40_apply (va : FVec Ideal S40 .f32) (q : Fin 40) :
    factor40 va (ix1 q) = Ideal.rsqrt (va (ix1 q) + Ideal.ofBits .f32 0x3A83126F#32) := by
  unfold factor40
  show FloatOps.hostUnary .rsqrt (va (ix1 q) + broadcastInDim S40 ![] bcast_S_S40 (constant S_ .f32 0x3A83126F#32) (ix1 q)) = _
  rw [scalar_bcast_apply, Ideal.hostUnary_rsqrt_def]
  rfl

/-- A hidden layer's tail (cut at zero). -/
def layer128 (agg sw : FVec Ideal S50000x128 .f32) (b g be mu va : FVec Ideal S128 .f32) : FVec Ideal S50000x128 .f32 :=
  maximumf (addf (mulf (mulf (subf (addf (addf agg sw) (rowB128 b)) (rowB128 mu)) (rowB128 (factor128 va))) (rowB128 g)) (rowB128 be))
    (broadcastInDim S50000x128 ![] bcast_S_S50000x128 (constant S_ .f32 0x00000000#32))

/-- The last layer's tail (no cut). -/
def layer40 (agg sw : FVec Ideal S50000x40 .f32) (b g be mu va : FVec Ideal S40 .f32) : FVec Ideal S50000x40 .f32 :=
  addf (mulf (mulf (subf (addf (addf agg sw) (rowB40 b)) (rowB40 mu)) (rowB40 (factor40 va))) (rowB40 g)) (rowB40 be)

theorem layer128_apply (agg sw : FVec Ideal S50000x128 .f32) (b g be mu va : FVec Ideal S128 .f32) (p : Fin 50000) (q : Fin 128) :
    layer128 agg sw b g be mu va (ix2 p q)
      = max ((((agg (ix2 p q) + sw (ix2 p q)) + b (ix1 q)) - mu (ix1 q)) * Ideal.rsqrt (va (ix1 q) + Ideal.ofBits .f32 0x3A83126F#32) * g (ix1 q) + be (ix1 q))
          (Ideal.ofBits .f32 0x00000000#32) := by
  unfold layer128
  show max ((((agg (ix2 p q) + sw (ix2 p q)) + rowB128 b (ix2 p q)) - rowB128 mu (ix2 p q)) * rowB128 (factor128 va) (ix2 p q) * rowB128 g (ix2 p q) + rowB128 be (ix2 p q))
      (broadcastInDim S50000x128 ![] bcast_S_S50000x128 (constant S_ .f32 0x00000000#32) (ix2 p q)) = _
  rw [rowB128_apply, rowB128_apply, rowB128_apply, rowB128_apply, rowB128_apply, factor128_apply, scalar_bcast_apply]
  rfl

theorem layer40_apply (agg sw : FVec Ideal S50000x40 .f32) (b g be mu va : FVec Ideal S40 .f32) (p : Fin 50000) (q : Fin 40) :
    layer40 agg sw b g be mu va (ix2 p q)
      = (((agg (ix2 p q) + sw (ix2 p q)) + b (ix1 q)) - mu (ix1 q)) * Ideal.rsqrt (va (ix1 q) + Ideal.ofBits .f32 0x3A83126F#32) * g (ix1 q) + be (ix1 q) := by
  unfold layer40
  show (((agg (ix2 p q) + sw (ix2 p q)) + rowB40 b (ix2 p q)) - rowB40 mu (ix2 p q)) * rowB40 (factor40 va) (ix2 p q) * rowB40 g (ix2 p q) + rowB40 be (ix2 p q) = _
  rw [rowB40_apply, rowB40_apply, rowB40_apply, rowB40_apply, rowB40_apply, factor40_apply]

variable (x0 : (⟨S50000x256, .f32⟩ : BufTy).Contents (Elt Ideal)) (x1 : (⟨S2x1000000, .i32⟩ : BufTy).Contents (Elt Ideal)) (x2 : (⟨S1000000, .f32⟩ : BufTy).Contents (Elt Ideal))
  (x3 x4 : (⟨S256x128, .f32⟩ : BufTy).Contents (Elt Ideal)) (x5 x6 x7 x8 x9 : (⟨S128, .f32⟩ : BufTy).Contents (Elt Ideal))
  (x10 x11 : (⟨S128x128, .f32⟩ : BufTy).Contents (Elt Ideal)) (x12 x13 x14 x15 x16 : (⟨S128, .f32⟩ : BufTy).Contents (Elt Ideal))
  (x17 x18 : (⟨S128x40, .f32⟩ : BufTy).Contents (Elt Ideal)) (x19 x20 x21 x22 x23 : (⟨S40, .f32⟩ : BufTy).Contents (Elt Ideal))

/-- The three layers' results in the reference are that expression of the layer's scatter and self product. -/
theorem out1_eq : val_main_v64 (F := Ideal) x0 x1 x2 x3 x4 x5 x6 x7 x8 x9
    = layer128 (val_main_v43 x0 x1 x2 x3) (val_main_v44 x0 x4) x5 x6 x7 x8 x9 := rfl
theorem out2_eq : val_main_v99 (F := Ideal) x0 x1 x2 x3 x4 x5 x6 x7 x8 x9 x10 x11 x12 x13 x14 x15 x16
    = layer128 (val_main_v78 x0 x1 x2 x3 x4 x5 x6 x7 x8 x9 x10) (val_main_v79 x0 x1 x2 x3 x4 x5 x6 x7 x8 x9 x11) x12 x13 x14 x15 x16 := rfl
theorem out3_eq : val_main_v133 (F := Ideal) x0 x1 x2 x3 x4 x5 x6 x7 x8 x9 x10 x11 x12 x13 x14 x15 x16 x17 x18 x19 x20 x21 x22 x23
    = layer40 (val_main_v113 x0 x1 x2 x3 x4 x5 x6 x7 x8 x9 x10 x11 x12 x13 x14 x15 x16 x17)
        (val_main_v114 x0 x1 x2 x3 x4 x5 x6 x7 x8 x9 x10 x11 x12 x13 x14 x15 x16 x18) x19 x20 x21 x22 x23 := rfl

end Cert.ReferenceIdeal.Layer

end
-- ==== Proof.KernelValue.lean ====
/-
  What the idealized kernel program's result array holds, stage by stage, in the reference's own terms.

  The program alternates host stretches with six regions.  Each region's result is one function of its operands (the
  product with a weight, that product plus a bias row, or the combine step), and each host stretch between them is the
  same gather, weighting and scatter the reference performs.  Walking the segment boundaries in order, every array a
  later stage reads is identified with the reference's value of the same name-free meaning: the products agree entry
  by entry because both are the same finite sum, and the combine step agrees with the reference's tail of the layer
  because addition of extended reals is associative: `agg + (h·W_self + b) = (agg + h·W_self) + b`.
-/
import proofs.«170502_j73727408603583_1_alg».proof.Proof.Gen.KernelIdeal.Frame
import proofs.«170502_j73727408603583_1_alg».proof.Proof.Gen.ReferenceIdeal.Read
import proofs.«170502_j73727408603583_1_alg».proof.Proof.KernelKept
import proofs.«170502_j73727408603583_1_alg».proof.Proof.KernelPrefix
import proofs.«170502_j73727408603583_1_alg».proof.Proof.Region0
import proofs.«170502_j73727408603583_1_alg».proof.Proof.Region1
import proofs.«170502_j73727408603583_1_alg».proof.Proof.Region2
import proofs.«170502_j73727408603583_1_alg».proof.Proof.Region3
import proofs.«170502_j73727408603583_1_alg».proof.Proof.Region4
import proofs.«170502_j73727408603583_1_alg».proof.Proof.Region5
import proofs.«170502_j73727408603583_1_alg».proof.Proof.RefEntries
import proofs.«170502_j73727408603583_1_alg».proof.Proof.RefLayer
import proofs.«170502_j73727408603583_1_alg».proof.Proof.LibRowBroadcast

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read Cert.ReferenceIdeal.Layer Cert.ReferenceIdeal.Entries

theorem congr3 {α β γ δ : Sort _} (f : α → β → γ → δ) {a a' : α} {b b' : β} {c c' : γ} (ha : a = a') (hb : b = b') (hc : c = c') :
    f a b c = f a' b' c' := by subst ha hb hc; rfl
theorem congr6 {α₁ α₂ α₃ α₄ α₅ α₆ δ : Sort _} (f : α₁ → α₂ → α₃ → α₄ → α₅ → α₆ → δ) {a₁ a₁' : α₁} {a₂ a₂' : α₂} {a₃ a₃' : α₃} {a₄ a₄' : α₄}
    {a₅ a₅' : α₅} {a₆ a₆' : α₆} (h₁ : a₁ = a₁') (h₂ : a₂ = a₂') (h₃ : a₃ = a₃') (h₄ : a₄ = a₄') (h₅ : a₅ = a₅') (h₆ : a₆ = a₆') :
    f a₁ a₂ a₃ a₄ a₅ a₆ = f a₁' a₂' a₃' a₄' a₅' a₆' := by subst h₁ h₂ h₃ h₄ h₅ h₆; rfl

/-! ## The kernel's closed forms against the reference's operations -/

/-- Layer 1: the dense region's first result is the reference's product. -/
theorem prod1_eq (h : FVec Ideal S50000x256 .f32) (w : FVec Ideal S256x128 .f32) :
    Region0.prod h w = Host.dotGeneral (F := Ideal) Cert.ReferenceIdeal.dot_S50000x256_S256x128_S50000x128_1_0_0_1_n_n none h w := by
  funext i
  obtain ⟨p, q, rfl⟩ : ∃ (p : Fin 50000) (q : Fin 128), i = ix2 p q := ⟨i 0, i 1, eq_ix2 i⟩
  exact (dot_v30_apply h w p q).symm

theorem prodBias1_apply (h : FVec Ideal S50000x256 .f32) (w : FVec Ideal S256x128 .f32) (b : S1x128.Idx → EReal) (p : Fin 50000) (q : Fin 128) :
    Region0.prodBias h w b (ix2 p q) = (∑ j : Fin 256, h (ix2 p j) * w (ix2 j q)) + b (ix2 (0 : Fin 1) q) := rfl

theorem comb1_apply (agg self : S50000x128.Idx → EReal) (gamma beta mean var : S1x128.Idx → EReal) (p : Fin 50000) (q : Fin 128) :
    Region1.comb agg self gamma beta mean var (ix2 p q) = max (((agg (ix2 p q) + self (ix2 p q)) - mean (ix2 (0 : Fin 1) q)) * Ideal.rsqrt (var (ix2 (0 : Fin 1) q) + Ideal.ofBits .f32 0x3A83126F#32) * gamma (ix2 (0 : Fin 1) q) + beta (ix2 (0 : Fin 1) q)) (Ideal.ofBits .f32 0x00000000#32) := rfl

/-- Layer 1: the combine region applied to the dense region's second result is the reference's tail of the layer. -/
theorem comb1_eq (agg : S50000x128.Idx → EReal) (h : FVec Ideal S50000x256 .f32) (w : FVec Ideal S256x128 .f32) (b g be mu va : S128.Idx → EReal) :
    Region1.comb agg (Region0.prodBias h w (shapeCast S1x128 b shapeCasts_S128_S1x128))
        (shapeCast S1x128 g shapeCasts_S128_S1x128) (shapeCast S1x128 be shapeCasts_S128_S1x128)
        (shapeCast S1x128 mu shapeCasts_S128_S1x128) (shapeCast S1x128 va shapeCasts_S128_S1x128)
      = layer128 agg (Host.dotGeneral (F := Ideal) Cert.ReferenceIdeal.dot_S50000x256_S256x128_S50000x128_1_0_0_1_n_n none h w) b g be mu va := by
  funext i
  obtain ⟨p, q, rfl⟩ : ∃ (p : Fin 50000) (q : Fin 128), i = ix2 p q := ⟨i 0, i 1, eq_ix2 i⟩
  rw [comb1_apply, prodBias1_apply, layer128_apply, dot_v30_apply h w p q]
  simp only [RowBroadcast.shapeCast_flat_apply]
  rw [add_assoc]

/-- Layer 2: the dense region's first result is the reference's product. -/
theorem prod2_eq (h : FVec Ideal S50000x128 .f32) (w : FVec Ideal S128x128 .f32) :
    Region2.prod h w = Host.dotGeneral (F := Ideal) Cert.ReferenceIdeal.dot_S50000x128_S128x128_S50000x128_1_0_0_1_n_n none h w := by
  funext i
  obtain ⟨p, q, rfl⟩ : ∃ (p : Fin 50000) (q : Fin 128), i = ix2 p q := ⟨i 0, i 1, eq_ix2 i⟩
  exact (dot_v65_apply h w p q).symm

theorem prodBias2_apply (h : FVec Ideal S50000x128 .f32) (w : FVec Ideal S128x128 .f32) (b : S1x128.Idx → EReal) (p : Fin 50000) (q : Fin 128) :
    Region2.prodBias h w b (ix2 p q) = (∑ j : Fin 128, h (ix2 p j) * w (ix2 j q)) + b (ix2 (0 : Fin 1) q) := rfl

theorem comb2_apply (agg self : S50000x128.Idx → EReal) (gamma beta mean var : S1x128.Idx → EReal) (p : Fin 50000) (q : Fin 128) :
    Region3.comb agg self gamma beta mean var (ix2 p q) = max (((agg (ix2 p q) + self (ix2 p q)) - mean (ix2 (0 : Fin 1) q)) * Ideal.rsqrt (var (ix2 (0 : Fin 1) q) + Ideal.ofBits .f32 0x3A83126F#32) * gamma (ix2 (0 : Fin 1) q) + beta (ix2 (0 : Fin 1) q)) (Ideal.ofBits .f32 0x00000000#32) := rfl

/-- Layer 2: the combine region applied to the dense region's second result is the reference's tail of the layer. -/
theorem comb2_eq (agg : S50000x128.Idx → EReal) (h : FVec Ideal S50000x128 .f32) (w : FVec Ideal S128x128 .f32) (b g be mu va : S128.Idx → EReal) :
    Region3.comb agg (Region2.prodBias h w (shapeCast S1x128 b shapeCasts_S128_S1x128))
        (shapeCast S1x128 g shapeCasts_S128_S1x128) (shapeCast S1x128 be shapeCasts_S128_S1x128)
        (shapeCast S1x128 mu shapeCasts_S128_S1x128) (shapeCast S1x128 va shapeCasts_S128_S1x128)
      = layer128 agg (Host.dotGeneral (F := Ideal) Cert.ReferenceIdeal.dot_S50000x128_S128x128_S50000x128_1_0_0_1_n_n none h w) b g be mu va := by
  funext i
  obtain ⟨p, q, rfl⟩ : ∃ (p : Fin 50000) (q : Fin 128), i = ix2 p q := ⟨i 0, i 1, eq_ix2 i⟩
  rw [comb2_apply, prodBias2_apply, layer128_apply, dot_v65_apply h w p q]
  simp only [RowBroadcast.shapeCast_flat_apply]
  rw [add_assoc]

/-- Layer 3: the dense region's first result is the reference's product. -/
theorem prod3_eq (h : FVec Ideal S50000x128 .f32) (w : FVec Ideal S128x40 .f32) :
    Region4.prod h w = Host.dotGeneral (F := Ideal) Cert.ReferenceIdeal.dot_S50000x128_S128x40_S50000x40_1_0_0_1_n_n none h w := by
  funext i
  obtain ⟨p, q, rfl⟩ : ∃ (p : Fin 50000) (q : Fin 40), i = ix2 p q := ⟨i 0, i 1, eq_ix2 i⟩
  exact (dot_v100_apply h w p q).symm

theorem prodBias3_apply (h : FVec Ideal S50000x128 .f32) (w : FVec Ideal S128x40 .f32) (b : S1x40.Idx → EReal) (p : Fin 50000) (q : Fin 40) :
    Region4.prodBias h w b (ix2 p q) = (∑ j : Fin 128, h (ix2 p j) * w (ix2 j q)) + b (ix2 (0 : Fin 1) q) := rfl

theorem comb3_apply (agg self : S50000x40.Idx → EReal) (gamma beta mean var : S1x40.Idx → EReal) (p : Fin 50000) (q : Fin 40) :
    Region5.comb agg self gamma beta mean var (ix2 p q) = ((agg (ix2 p q) + self (ix2 p q)) - mean (ix2 (0 : Fin 1) q)) * Ideal.rsqrt (var (ix2 (0 : Fin 1) q) + Ideal.ofBits .f32 0x3A83126F#32) * gamma (ix2 (0 : Fin 1) q) + beta (ix2 (0 : Fin 1) q) := rfl

/-- Layer 3: the combine region applied to the dense region's second result is the reference's tail of the layer. -/
theorem comb3_eq (agg : S50000x40.Idx → EReal) (h : FVec Ideal S50000x128 .f32) (w : FVec Ideal S128x40 .f32) (b g be mu va : S40.Idx → EReal) :
    Region5.comb agg (Region4.prodBias h w (shapeCast S1x40 b shapeCasts_S40_S1x40))
        (shapeCast S1x40 g shapeCasts_S40_S1x40) (shapeCast S1x40 be shapeCasts_S40_S1x40)
        (shapeCast S1x40 mu shapeCasts_S40_S1x40) (shapeCast S1x40 va shapeCasts_S40_S1x40)
      = layer40 agg (Host.dotGeneral (F := Ideal) Cert.ReferenceIdeal.dot_S50000x128_S128x40_S50000x40_1_0_0_1_n_n none h w) b g be mu va := by
  funext i
  obtain ⟨p, q, rfl⟩ : ∃ (p : Fin 50000) (q : Fin 40), i = ix2 p q := ⟨i 0, i 1, eq_ix2 i⟩
  rw [comb3_apply, prodBias3_apply, layer40_apply, dot_v100_apply h w p q]
  simp only [RowBroadcast.shapeCast_flat_apply]
  rw [add_assoc]

/-! ## The segment boundaries, in order -/

variable (m : (ℓ : Loc nD τ sig) → Buf (Elt Ideal) ℓ) (ρ : Dev nD → PrngReg) (c : Dev nD)

/-- The launch contents of the argument arrays, each at its array type. -/
abbrev arg1 : IVec S2x1000000 32 := m ((c : Thread nD τ).loc main_arg1)
abbrev arg0 : FVec Ideal S50000x256 .f32 := m ((c : Thread nD τ).loc main_arg0)
abbrev arg2 : FVec Ideal S1000000 .f32 := m ((c : Thread nD τ).loc main_arg2)
abbrev arg3 : FVec Ideal S256x128 .f32 := m ((c : Thread nD τ).loc main_arg3)
abbrev arg4 : FVec Ideal S256x128 .f32 := m ((c : Thread nD τ).loc main_arg4)
abbrev arg5 : FVec Ideal S128 .f32 := m ((c : Thread nD τ).loc main_arg5)
abbrev arg6 : FVec Ideal S128 .f32 := m ((c : Thread nD τ).loc main_arg6)
abbrev arg7 : FVec Ideal S128 .f32 := m ((c : Thread nD τ).loc main_arg7)
abbrev arg8 : FVec Ideal S128 .f32 := m ((c : Thread nD τ).loc main_arg8)
abbrev arg9 : FVec Ideal S128 .f32 := m ((c : Thread nD τ).loc main_arg9)
abbrev arg10 : FVec Ideal S128x128 .f32 := m ((c : Thread nD τ).loc main_arg10)
abbrev arg11 : FVec Ideal S128x128 .f32 := m ((c : Thread nD τ).loc main_arg11)
abbrev arg12 : FVec Ideal S128 .f32 := m ((c : Thread nD τ).loc main_arg12)
abbrev arg13 : FVec Ideal S128 .f32 := m ((c : Thread nD τ).loc main_arg13)
abbrev arg14 : FVec Ideal S128 .f32 := m ((c : Thread nD τ).loc main_arg14)
abbrev arg15 : FVec Ideal S128 .f32 := m ((c : Thread nD τ).loc main_arg15)
abbrev arg16 : FVec Ideal S128 .f32 := m ((c : Thread nD τ).loc main_arg16)
abbrev arg17 : FVec Ideal S128x40 .f32 := m ((c : Thread nD τ).loc main_arg17)
abbrev arg18 : FVec Ideal S128x40 .f32 := m ((c : Thread nD τ).loc main_arg18)
abbrev arg19 : FVec Ideal S40 .f32 := m ((c : Thread nD τ).loc main_arg19)
abbrev arg20 : FVec Ideal S40 .f32 := m ((c : Thread nD τ).loc main_arg20)
abbrev arg21 : FVec Ideal S40 .f32 := m ((c : Thread nD τ).loc main_arg21)
abbrev arg22 : FVec Ideal S40 .f32 := m ((c : Thread nD τ).loc main_arg22)
abbrev arg23 : FVec Ideal S40 .f32 := m ((c : Thread nD τ).loc main_arg23)

set_option maxHeartbeats 4000000

/-! ### Before the first region: the edge endpoints, the edge weights and the first bias row -/

theorem at5_v1 : W5 m ρ c (Proc.devRef .tc main_v1) = val_main_v1 (F := Ideal) (arg1 m c) := Prefix.at5_v1 (F := Ideal) m ρ c
theorem at5_v3 : W5 m ρ c (Proc.devRef .tc main_v3) = val_main_v3 (F := Ideal) (arg1 m c) := Prefix.at5_v3 (F := Ideal) m ρ c
theorem at5_v29 : W5 m ρ c (Proc.devRef .tc main_v29) = val_main_v29 (F := Ideal) (arg1 m c) (arg2 m c) :=
  Prefix.at5_v29 (F := Ideal) m ρ c
theorem at5_v30 : W5 m ρ c (Proc.devRef .tc main_v30) = shapeCast S1x128 (arg5 m c) shapeCasts_S128_S1x128 :=
  Prefix.at5_v30 (F := Ideal) m ρ c

/-! ### Layer 1 -/

/-- After the dense region: the product with the aggregation weight is the reference's. -/
theorem at6_hw : W6 m ρ c (Proc.devRef .tc main_v31_0) = (val_main_v30 (F := Ideal) (arg0 m c) (arg3 m c)) :=
  (W6_arr m ρ c 4).trans ((Region0.final4 (V5 m ρ) c).trans
    ((congrArg₂ Region0.prod (Kept.at5_arg0 m ρ c) (Kept.at5_arg3 m ρ c)).trans (prod1_eq (arg0 m c) (arg3 m c))))
/-- After the dense region: the self term, still in the kernel's form. -/
theorem at6_self : W6 m ρ c (Proc.devRef .tc main_v31_1) = (Region0.prodBias (arg0 m c) (arg4 m c) (shapeCast S1x128 (arg5 m c) shapeCasts_S128_S1x128)) :=
  (W6_arr m ρ c 5).trans ((Region0.final5 (V5 m ρ) c).trans
    (congr3 Region0.prodBias (Kept.at5_arg0 m ρ c) (Kept.at5_arg4 m ρ c) (at5_v30 m ρ c)))
theorem at6_v1' : W6 m ρ c (Proc.devRef .tc main_v1) = val_main_v1 (F := Ideal) (arg1 m c) :=
  (Kept.at6_v1 m ρ c).trans (at5_v1 m ρ c)
theorem at6_v3' : W6 m ρ c (Proc.devRef .tc main_v3) = val_main_v3 (F := Ideal) (arg1 m c) :=
  (Kept.at6_v3 m ρ c).trans (at5_v3 m ρ c)
theorem at6_v29' : W6 m ρ c (Proc.devRef .tc main_v29) = val_main_v29 (F := Ideal) (arg1 m c) (arg2 m c) :=
  (Kept.at6_v29 m ρ c).trans (at5_v29 m ρ c)

/-- After the gather, weighting and scatter: the aggregated messages are the reference's. -/
theorem at7_agg : W7 m ρ c (Proc.devRef .tc main_v44) = (val_main_v43 (F := Ideal) (arg0 m c) (arg1 m c) (arg2 m c) (arg3 m c)) := by
  dsimp only [W7, hostOps1]
  after_results
  rw [at6_hw m ρ c, at6_v1' m ρ c, at6_v3' m ρ c, at6_v29' m ρ c]
  rfl
theorem at7_self : W7 m ρ c (Proc.devRef .tc main_v31_1) = (Region0.prodBias (arg0 m c) (arg4 m c) (shapeCast S1x128 (arg5 m c) shapeCasts_S128_S1x128)) :=
  (Kept.at7_v31_1 m ρ c).trans (at6_self m ρ c)
theorem at7_v45 : W7 m ρ c (Proc.devRef .tc main_v45) = (shapeCast S1x128 (arg6 m c) shapeCasts_S128_S1x128) := by
  dsimp only [W7, hostOps1]
  after_results
  exact congrArg (fun x : FVec Ideal S128 .f32 => shapeCast S1x128 x shapeCasts_S128_S1x128) (Kept.at6_arg6 m ρ c)
theorem at7_v46 : W7 m ρ c (Proc.devRef .tc main_v46) = (shapeCast S1x128 (arg7 m c) shapeCasts_S128_S1x128) := by
  dsimp only [W7, hostOps1]
  after_results
  exact congrArg (fun x : FVec Ideal S128 .f32 => shapeCast S1x128 x shapeCasts_S128_S1x128) (Kept.at6_arg7 m ρ c)
theorem at7_v47 : W7 m ρ c (Proc.devRef .tc main_v47) = (shapeCast S1x128 (arg8 m c) shapeCasts_S128_S1x128) := by
  dsimp only [W7, hostOps1]
  after_results
  exact congrArg (fun x : FVec Ideal S128 .f32 => shapeCast S1x128 x shapeCasts_S128_S1x128) (Kept.at6_arg8 m ρ c)
theorem at7_v48 : W7 m ρ c (Proc.devRef .tc main_v48) = (shapeCast S1x128 (arg9 m c) shapeCasts_S128_S1x128) := by
  dsimp only [W7, hostOps1]
  after_results
  exact congrArg (fun x : FVec Ideal S128 .f32 => shapeCast S1x128 x shapeCasts_S128_S1x128) (Kept.at6_arg9 m ρ c)

/-- After the combine region: the layer's result is the reference's. -/
theorem at8_h : W8 m ρ c (Proc.devRef .tc main_v49) = (val_main_v64 (F := Ideal) (arg0 m c) (arg1 m c) (arg2 m c) (arg3 m c) (arg4 m c) (arg5 m c) (arg6 m c) (arg7 m c) (arg8 m c) (arg9 m c)) :=
  (W8_arr m ρ c 6).trans ((Region1.final6 (V7 m ρ) c).trans
    ((congr6 Region1.comb (at7_agg m ρ c) (at7_self m ρ c) (at7_v45 m ρ c) (at7_v46 m ρ c)
        (at7_v47 m ρ c) (at7_v48 m ρ c)).trans
      ((comb1_eq (val_main_v43 (F := Ideal) (arg0 m c) (arg1 m c) (arg2 m c) (arg3 m c)) (arg0 m c) (arg4 m c) (arg5 m c) (arg6 m c) (arg7 m c) (arg8 m c) (arg9 m c)).trans (out1_eq (arg0 m c) (arg1 m c) (arg2 m c) (arg3 m c) (arg4 m c) (arg5 m c) (arg6 m c) (arg7 m c) (arg8 m c) (arg9 m c)).symm)))

/-! ### Layer 2 -/

theorem at9_h : W9 m ρ c (Proc.devRef .tc main_v49) = (val_main_v64 (F := Ideal) (arg0 m c) (arg1 m c) (arg2 m c) (arg3 m c) (arg4 m c) (arg5 m c) (arg6 m c) (arg7 m c) (arg8 m c) (arg9 m c)) :=
  (Kept.at9_v49 m ρ c).trans (at8_h m ρ c)
theorem at9_v50 : W9 m ρ c (Proc.devRef .tc main_v50) = (shapeCast S1x128 (arg12 m c) shapeCasts_S128_S1x128) := by
  dsimp only [W9, hostOps2]
  after_results
  exact congrArg (fun x : FVec Ideal S128 .f32 => shapeCast S1x128 x shapeCasts_S128_S1x128) (Kept.at8_arg12 m ρ c)
/-- After the dense region: the product with the aggregation weight is the reference's. -/
theorem at10_hw : W10 m ρ c (Proc.devRef .tc main_v51_0) = (val_main_v65 (F := Ideal) (arg0 m c) (arg1 m c) (arg2 m c) (arg3 m c) (arg4 m c) (arg5 m c) (arg6 m c) (arg7 m c) (arg8 m c) (arg9 m c) (arg10 m c)) :=
  (W10_arr m ρ c 4).trans ((Region2.final4 (V9 m ρ) c).trans
    ((congrArg₂ Region2.prod (at9_h m ρ c) (Kept.at9_arg10 m ρ c)).trans (prod2_eq (val_main_v64 (F := Ideal) (arg0 m c) (arg1 m c) (arg2 m c) (arg3 m c) (arg4 m c) (arg5 m c) (arg6 m c) (arg7 m c) (arg8 m c) (arg9 m c)) (arg10 m c))))
/-- After the dense region: the self term, still in the kernel's form. -/
theorem at10_self : W10 m ρ c (Proc.devRef .tc main_v51_1) = (Region2.prodBias (val_main_v64 (F := Ideal) (arg0 m c) (arg1 m c) (arg2 m c) (arg3 m c) (arg4 m c) (arg5 m c) (arg6 m c) (arg7 m c) (arg8 m c) (arg9 m c)) (arg11 m c) (shapeCast S1x128 (arg12 m c) shapeCasts_S128_S1x128)) :=
  (W10_arr m ρ c 5).trans ((Region2.final5 (V9 m ρ) c).trans
    (congr3 Region2.prodBias (at9_h m ρ c) (Kept.at9_arg11 m ρ c) (at9_v50 m ρ c)))
theorem at10_v1' : W10 m ρ c (Proc.devRef .tc main_v1) = val_main_v1 (F := Ideal) (arg1 m c) :=
  (Kept.at10_v1 m ρ c).trans (at5_v1 m ρ c)
theorem at10_v3' : W10 m ρ c (Proc.devRef .tc main_v3) = val_main_v3 (F := Ideal) (arg1 m c) :=
  (Kept.at10_v3 m ρ c).trans (at5_v3 m ρ c)
theorem at10_v29' : W10 m ρ c (Proc.devRef .tc main_v29) = val_main_v29 (F := Ideal) (arg1 m c) (arg2 m c) :=
  (Kept.at10_v29 m ρ c).trans (at5_v29 m ρ c)

/-- After the gather, weighting and scatter: the aggregated messages are the reference's. -/
theorem at11_agg : W11 m ρ c (Proc.devRef .tc main_v64) = (val_main_v78 (F := Ideal) (arg0 m c) (arg1 m c) (arg2 m c) (arg3 m c) (arg4 m c) (arg5 m c) (arg6 m c) (arg7 m c) (arg8 m c) (arg9 m c) (arg10 m c)) := by
  dsimp only [W11, hostOps3]
  after_results
  rw [at10_hw m ρ c, at10_v1' m ρ c, at10_v3' m ρ c, at10_v29' m ρ c]
  rfl
theorem at11_self : W11 m ρ c (Proc.devRef .tc main_v51_1) = (Region2.prodBias (val_main_v64 (F := Ideal) (arg0 m c) (arg1 m c) (arg2 m c) (arg3 m c) (arg4 m c) (arg5 m c) (arg6 m c) (arg7 m c) (arg8 m c) (arg9 m c)) (arg11 m c) (shapeCast S1x128 (arg12 m c) shapeCasts_S128_S1x128)) :=
  (Kept.at11_v51_1 m ρ c).trans (at10_self m ρ c)
theorem at11_v65 : W11 m ρ c (Proc.devRef .tc main_v65) = (shapeCast S1x128 (arg13 m c) shapeCasts_S128_S1x128) := by
  dsimp only [W11, hostOps3]
  after_results
  exact congrArg (fun x : FVec Ideal S128 .f32 => shapeCast S1x128 x shapeCasts_S128_S1x128) (Kept.at10_arg13 m ρ c)
theorem at11_v66 : W11 m ρ c (Proc.devRef .tc main_v66) = (shapeCast S1x128 (arg14 m c) shapeCasts_S128_S1x128) := by
  dsimp only [W11, hostOps3]
  after_results
  exact congrArg (fun x : FVec Ideal S128 .f32 => shapeCast S1x128 x shapeCasts_S128_S1x128) (Kept.at10_arg14 m ρ c)
theorem at11_v67 : W11 m ρ c (Proc.devRef .tc main_v67) = (shapeCast S1x128 (arg15 m c) shapeCasts_S128_S1x128) := by
  dsimp only [W11, hostOps3]
  after_results
  exact congrArg (fun x : FVec Ideal S128 .f32 => shapeCast S1x128 x shapeCasts_S128_S1x128) (Kept.at10_arg15 m ρ c)
theorem at11_v68 : W11 m ρ c (Proc.devRef .tc main_v68) = (shapeCast S1x128 (arg16 m c) shapeCasts_S128_S1x128) := by
  dsimp only [W11, hostOps3]
  after_results
  exact congrArg (fun x : FVec Ideal S128 .f32 => shapeCast S1x128 x shapeCasts_S128_S1x128) (Kept.at10_arg16 m ρ c)

/-- After the combine region: the layer's result is the reference's. -/
theorem at12_h : W12 m ρ c (Proc.devRef .tc main_v69) = (val_main_v99 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)) :=
  (W12_arr m ρ c 6).trans ((Region3.final6 (V11 m ρ) c).trans
    ((congr6 Region3.comb (at11_agg m ρ c) (at11_self m ρ c) (at11_v65 m ρ c) (at11_v66 m ρ c)
        (at11_v67 m ρ c) (at11_v68 m ρ c)).trans
      ((comb2_eq (val_main_v78 (F := Ideal) (arg0 m c) (arg1 m c) (arg2 m c) (arg3 m c) (arg4 m c) (arg5 m c) (arg6 m c) (arg7 m c) (arg8 m c) (arg9 m c) (arg10 m c)) (val_main_v64 (F := Ideal) (arg0 m c) (arg1 m c) (arg2 m c) (arg3 m c) (arg4 m c) (arg5 m c) (arg6 m c) (arg7 m c) (arg8 m c) (arg9 m c)) (arg11 m c) (arg12 m c) (arg13 m c) (arg14 m c) (arg15 m c) (arg16 m c)).trans (out2_eq (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)).symm)))

/-! ### Layer 3 -/

theorem at13_h : W13 m ρ c (Proc.devRef .tc main_v69) = (val_main_v99 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)) :=
  (Kept.at13_v69 m ρ c).trans (at12_h m ρ c)
theorem at13_v70 : W13 m ρ c (Proc.devRef .tc main_v70) = (shapeCast S1x40 (arg19 m c) shapeCasts_S40_S1x40) := by
  dsimp only [W13, hostOps4]
  after_results
  exact congrArg (fun x : FVec Ideal S40 .f32 => shapeCast S1x40 x shapeCasts_S40_S1x40) (Kept.at12_arg19 m ρ c)
/-- After the dense region: the product with the aggregation weight is the reference's. -/
theorem at14_hw : W14 m ρ c (Proc.devRef .tc main_v71_0) = (val_main_v100 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c)) :=
  (W14_arr m ρ c 4).trans ((Region4.final4 (V13 m ρ) c).trans
    ((congrArg₂ Region4.prod (at13_h m ρ c) (Kept.at13_arg17 m ρ c)).trans (prod3_eq (val_main_v99 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)) (arg17 m c))))
/-- After the dense region: the self term, still in the kernel's form. -/
theorem at14_self : W14 m ρ c (Proc.devRef .tc main_v71_1) = (Region4.prodBias (val_main_v99 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)) (arg18 m c) (shapeCast S1x40 (arg19 m c) shapeCasts_S40_S1x40)) :=
  (W14_arr m ρ c 5).trans ((Region4.final5 (V13 m ρ) c).trans
    (congr3 Region4.prodBias (at13_h m ρ c) (Kept.at13_arg18 m ρ c) (at13_v70 m ρ c)))
theorem at14_v1' : W14 m ρ c (Proc.devRef .tc main_v1) = val_main_v1 (F := Ideal) (arg1 m c) :=
  (Kept.at14_v1 m ρ c).trans (at5_v1 m ρ c)
theorem at14_v3' : W14 m ρ c (Proc.devRef .tc main_v3) = val_main_v3 (F := Ideal) (arg1 m c) :=
  (Kept.at14_v3 m ρ c).trans (at5_v3 m ρ c)
theorem at14_v29' : W14 m ρ c (Proc.devRef .tc main_v29) = val_main_v29 (F := Ideal) (arg1 m c) (arg2 m c) :=
  (Kept.at14_v29 m ρ c).trans (at5_v29 m ρ c)

/-- After the gather, weighting and scatter: the aggregated messages are the reference's. -/
theorem at15_agg : W15 m ρ c (Proc.devRef .tc main_v84) = (val_main_v113 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c)) := by
  dsimp only [W15, hostOps5]
  after_results
  rw [at14_hw m ρ c, at14_v1' m ρ c, at14_v3' m ρ c, at14_v29' m ρ c]
  rfl
theorem at15_self : W15 m ρ c (Proc.devRef .tc main_v71_1) = (Region4.prodBias (val_main_v99 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)) (arg18 m c) (shapeCast S1x40 (arg19 m c) shapeCasts_S40_S1x40)) :=
  (Kept.at15_v71_1 m ρ c).trans (at14_self m ρ c)
theorem at15_v85 : W15 m ρ c (Proc.devRef .tc main_v85) = (shapeCast S1x40 (arg20 m c) shapeCasts_S40_S1x40) := by
  dsimp only [W15, hostOps5]
  after_results
  exact congrArg (fun x : FVec Ideal S40 .f32 => shapeCast S1x40 x shapeCasts_S40_S1x40) (Kept.at14_arg20 m ρ c)
theorem at15_v86 : W15 m ρ c (Proc.devRef .tc main_v86) = (shapeCast S1x40 (arg21 m c) shapeCasts_S40_S1x40) := by
  dsimp only [W15, hostOps5]
  after_results
  exact congrArg (fun x : FVec Ideal S40 .f32 => shapeCast S1x40 x shapeCasts_S40_S1x40) (Kept.at14_arg21 m ρ c)
theorem at15_v87 : W15 m ρ c (Proc.devRef .tc main_v87) = (shapeCast S1x40 (arg22 m c) shapeCasts_S40_S1x40) := by
  dsimp only [W15, hostOps5]
  after_results
  exact congrArg (fun x : FVec Ideal S40 .f32 => shapeCast S1x40 x shapeCasts_S40_S1x40) (Kept.at14_arg22 m ρ c)
theorem at15_v88 : W15 m ρ c (Proc.devRef .tc main_v88) = (shapeCast S1x40 (arg23 m c) shapeCasts_S40_S1x40) := by
  dsimp only [W15, hostOps5]
  after_results
  exact congrArg (fun x : FVec Ideal S40 .f32 => shapeCast S1x40 x shapeCasts_S40_S1x40) (Kept.at14_arg23 m ρ c)

/-- After the combine region: the layer's result is the reference's. -/
theorem at16_h : W16 m ρ c (Proc.devRef .tc main_v89) = (val_main_v133 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c) (arg23 m c)) :=
  (W16_arr m ρ c 6).trans ((Region5.final6 (V15 m ρ) c).trans
    ((congr6 Region5.comb (at15_agg m ρ c) (at15_self m ρ c) (at15_v85 m ρ c) (at15_v86 m ρ c)
        (at15_v87 m ρ c) (at15_v88 m ρ c)).trans
      ((comb3_eq (val_main_v113 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c)) (val_main_v99 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)) (arg18 m c) (arg19 m c) (arg20 m c) (arg21 m c) (arg22 m c) (arg23 m c)).trans (out3_eq (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c) (arg23 m c)).symm)))

end Cert.KernelIdeal.Chain

end
-- ==== Proof.lean ====
/-
  A three-layer graph convolution at the ideal instance: the kernel program against the plain reference.

  Each layer computes `hw = h·W_gcn`, gathers `hw` at every edge's source, weights it by the symmetric edge
  normalisation, scatter-adds at the edge's target (`agg`), and finishes with
  `((agg + h·W_self + b − mean) · rsqrt(var + ε)) · gamma + beta`, cut at zero in the first two layers.  The kernel program
  computes the two products (the second with the bias already added) in one region per layer, tiled over blocks of 5000
  rows, and the finishing arithmetic in a second region; the degree normalisation, the gather and the scatter are the
  same host operations in both programs.  On the extended reals a change of float format is the identity, a tiled
  product is the product, and `agg + (h·W_self + b) = (agg + h·W_self) + b`, so the two programs end with equal results;
  no finiteness of the inputs is used.

  The frames of the two kernel programs are their generated frame certificates; the reference's frame is its generated
  run with the result dropped; the idealization rewrote nothing, so there is nothing to preserve.
-/
import proofs.«170502_j73727408603583_1_alg».proof.Defs
import proofs.«170502_j73727408603583_1_alg».proof.Proof.Gen.Kernel
import proofs.«170502_j73727408603583_1_alg».proof.Proof.Gen.Kernel.Skeleton
import proofs.«170502_j73727408603583_1_alg».proof.Proof.Gen.Kernel.Launch
import proofs.«170502_j73727408603583_1_alg».proof.Proof.Gen.Kernel.Points
import proofs.«170502_j73727408603583_1_alg».proof.Proof.Gen.Kernel.Frame
import proofs.«170502_j73727408603583_1_alg».proof.Proof.Gen.KernelIdeal
import proofs.«170502_j73727408603583_1_alg».proof.Proof.Gen.KernelIdeal.Skeleton
import proofs.«170502_j73727408603583_1_alg».proof.Proof.Gen.KernelIdeal.Launch
import proofs.«170502_j73727408603583_1_alg».proof.Proof.Gen.KernelIdeal.Points
import proofs.«170502_j73727408603583_1_alg».proof.Proof.Gen.KernelIdeal.Frame
import proofs.«170502_j73727408603583_1_alg».proof.Proof.Gen.ReferenceIdeal
import proofs.«170502_j73727408603583_1_alg».proof.Proof.Gen.ReferenceIdeal.Run
import proofs.«170502_j73727408603583_1_alg».proof.Proof.Gen.ReferenceIdeal.Read
import proofs.«170502_j73727408603583_1_alg».proof.Proof.Gen.Pre_finite_inputs
import proofs.«170502_j73727408603583_1_alg».proof.Proof.KernelRun
import proofs.«170502_j73727408603583_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel program's result array ends at the last segment boundary's contents, which the
    stage-by-stage reading identifies with the reference's composed term of the same arguments. -/
theorem algebraic : Cert.algebraic_KernelIdeal_ReferenceIdeal := by
  intro m ρ m' ρ' _ hagree
  refine ⟨fun c => Cert.KernelIdeal.Gen.W16 m ρ c (Proc.devRef .tc Cert.KernelIdeal.main_v89),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23⟩ := hagree c
  show _ = Cert.KernelIdeal.Gen.W16 m ρ c (Proc.devRef .tc Cert.KernelIdeal.main_v89)
  rw [Cert.KernelIdeal.Chain.at16_h m ρ c, Cert.ReferenceIdeal.Read.val_main_v133_eq, h0, h1, h2, h3, h4, h5, h6, h7, h8, h9, h10, h11, h12, h13, h14, h15, h16, h17, h18, h19, h20, h21, h22, h23]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
